-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S384x1 : Shape := ⟨2, ![384, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x1 : S_.BroadcastsInDim S384x1 (![] : Fin 0 → Fin S384x1.rank)
  reducesTo_S384x1_S_d0_1 : S384x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S128x128 .f32) (main_arg14 : FVec F S128 .f32) (main_arg15 : FVec F S384x1 .f32) (main_arg16 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S384x1 .f32 := Host.absf main_arg15
  let main_cst_24 : FVec F S_ .f32 := constant S_ .f32 0x7F800000#32
  let main_v65 : FVec F S384x1 .f32 := broadcastInDim S384x1 ![] bcast_S_S384x1 main_cst_24
  let main_v66 : IVec S384x1 1 := cmpf .olt main_v64 main_v65
  let main_c_25 : IVec S_ 1 := constantI S_ 1 1#1
  let main_v67 : IVec S_ 1 := (fun x v => Host.reduce IntOp.andi x v reducesTo_S384x1_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S384x1 .f32) (main_arg16 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S384x1 .f32) (main_arg16 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S384x1 .f32) (main_arg16 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S384x1 : Shape := ⟨2, ![384, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S4000x128 : Shape := ⟨2, ![4000, 128]⟩
abbrev S128x1 : Shape := ⟨2, ![128, 1]⟩
abbrev S1x1 : Shape := ⟨2, ![1, 1]⟩
abbrev S100000x1 : Shape := ⟨2, ![100000, 1]⟩
abbrev S4000x1 : Shape := ⟨2, ![4000, 1]⟩

abbrev nBuf : Space → Nat
  | .hbm => 83
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S384x1, .f32⟩
  | .hbm, ⟨16, _⟩ => ⟨S1, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S128x128, .bf16⟩
  | .hbm, ⟨35, _⟩ => ⟨S128x128, .bf16⟩
  | .hbm, ⟨36, _⟩ => ⟨S1x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S128x128, .bf16⟩
  | .hbm, ⟨53, _⟩ => ⟨S128x128, .bf16⟩
  | .hbm, ⟨54, _⟩ => ⟨S1x128, .f32⟩
  | .hbm, ⟨55, _⟩ => ⟨S1x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S128x128, .bf16⟩
  | .hbm, ⟨71, _⟩ => ⟨S128x128, .bf16⟩
  | .hbm, ⟨72, _⟩ => ⟨S1x128, .f32⟩
  | .hbm, ⟨73, _⟩ => ⟨S1x128, .f32⟩
  | .hbm, ⟨74, _⟩ => ⟨S100000x128, .f32⟩
  | .hbm, ⟨75, _⟩ => ⟨S128x1, .f32⟩
  | .hbm, ⟨76, _⟩ => ⟨S128x1, .bf16⟩
  | .hbm, ⟨77, _⟩ => ⟨S128x1, .f32⟩
  | .hbm, ⟨78, _⟩ => ⟨S128x1, .bf16⟩
  | .hbm, ⟨79, _⟩ => ⟨S128x1, .f32⟩
  | .hbm, ⟨80, _⟩ => ⟨S128x1, .bf16⟩
  | .hbm, ⟨81, _⟩ => ⟨S1x1, .f32⟩
  | .hbm, ⟨82, _⟩ => ⟨S100000x1, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .bf16⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S128x128, .bf16⟩
  | .local _ .vmem, ⟨25, _⟩ => ⟨S1x128, .f32⟩
  | .local _ .vmem, ⟨26, _⟩ => ⟨S128x128, .bf16⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S128x1, .bf16⟩
  | .local _ .vmem, ⟨37, _⟩ => ⟨S128x1, .bf16⟩
  | .local _ .vmem, ⟨38, _⟩ => ⟨S128x1, .bf16⟩
  | .local _ .vmem, ⟨39, _⟩ => ⟨S1x1, .f32⟩
  | .local _ .vmem, ⟨40, _⟩ => ⟨S4000x1, .f32⟩
  | .local _ .vmem, ⟨41, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_1 : Ref sig .tc := ⟨.hbm, 39, rfl⟩
abbrev main_v19 : Ref sig .tc := ⟨.hbm, 40, rfl⟩
abbrev main_v20 : Ref sig .tc := ⟨.hbm, 41, rfl⟩
abbrev main_c_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_4 : Ref sig .tc := ⟨.hbm, 57, rfl⟩
abbrev main_v34 : Ref sig .tc := ⟨.hbm, 58, rfl⟩
abbrev main_v35 : Ref sig .tc := ⟨.hbm, 59, rfl⟩
abbrev main_c_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg7_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem7_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x1 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x1 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bitsLt_bf16_f32 : FTy.bits .bf16 < FTy.bits .f32
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S384x1_S128x1_0_0 : S384x1.Slices ![0, 0] S128x1
  slices_S384x1_S128x1_128_0 : S384x1.Slices ![128, 0] S128x1
  slices_S384x1_S128x1_256_0 : S384x1.Slices ![256, 0] S128x1
  shapeCasts_S1_S1x1 : S1.ShapeCasts S1x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x1.size a ≤ S128x1.size a
  hwx3_3 : ∀ i : grid3.Coords, EltTy.bits .bf16 = 32 ∨ (Rect.block (s := S128x1) S128x1.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x1.size a ≤ S128x1.size a
  hwx3_4 : ∀ i : grid3.Coords, EltTy.bits .bf16 = 32 ∨ (Rect.block (s := S128x1) S128x1.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .bf16 = 32 ∨ (Rect.block (s := S128x1) S128x1.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x1.size a ≤ S100000x1.size a
  hwx3_7 : ∀ i : grid3.Coords, EltTy.bits .f32 = 32 ∨ (Rect.block (s := S100000x1) S4000x1.size (cc3_transform_7 i) (hinb3_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_v13) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v28) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v18) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v50) S128x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S128x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v55) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v56) S4000x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S384x1 : Shape := ⟨2, ![384, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x384 : Shape := ⟨2, ![100000, 384]⟩
abbrev S100000x1 : Shape := ⟨2, ![100000, 1]⟩
abbrev S1x1 : Shape := ⟨2, ![1, 1]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S384x1, .f32⟩
  | .hbm, ⟨16, _⟩ => ⟨S1, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x128, .f32⟩
  | .hbm, ⟨86, _⟩ => ⟨S_, .f32⟩
  | .hbm, ⟨87, _⟩ => ⟨S100000x128, .f32⟩
  | .hbm, ⟨88, _⟩ => ⟨S1600000x1, .i32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S100000x128, .f32⟩
  | .hbm, ⟨97, _⟩ => ⟨S100000x128, .f32⟩
  | .hbm, ⟨98, _⟩ => ⟨S100000x128, .f32⟩
  | .hbm, ⟨99, _⟩ => ⟨S1x128, .f32⟩
  | .hbm, ⟨100, _⟩ => ⟨S100000x128, .f32⟩
  | .hbm, ⟨101, _⟩ => ⟨S100000x128, .f32⟩
  | .hbm, ⟨102, _⟩ => ⟨S100000x384, .f32⟩
  | .hbm, ⟨103, _⟩ => ⟨S100000x1, .f32⟩
  | .hbm, ⟨104, _⟩ => ⟨S1x1, .f32⟩
  | .hbm, ⟨105, _⟩ => ⟨S100000x1, .f32⟩
  | .hbm, ⟨106, _⟩ => ⟨S100000x1, .f32⟩
  | .hbm, ⟨107, _⟩ => ⟨S100000x1, .f32⟩
  | .hbm, ⟨108, _⟩ => ⟨S100000x1, .f32⟩
  | .hbm, ⟨109, _⟩ => ⟨S_, .f32⟩
  | .hbm, ⟨110, _⟩ => ⟨S100000x1, .f32⟩
  | .hbm, ⟨111, _⟩ => ⟨S100000x1, .f32⟩
  | .hbm, ⟨112, _⟩ => ⟨S_, .f32⟩
  | .hbm, ⟨113, _⟩ => ⟨S100000x1, .f32⟩
  | .hbm, ⟨114, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_c_3 : Ref sig .tc := ⟨.hbm, 49, rfl⟩
abbrev main_v27 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_v49 : Ref sig .tc := ⟨.hbm, 76, rfl⟩
abbrev main_c_8 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_11 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_12 : Ref sig .tc := ⟨.hbm, 109, rfl⟩
abbrev main_v78 : Ref sig .tc := ⟨.hbm, 110, rfl⟩
abbrev main_v79 : Ref sig .tc := ⟨.hbm, 111, rfl⟩
abbrev main_cst_13 : Ref sig .tc := ⟨.hbm, 112, rfl⟩
abbrev main_v80 : Ref sig .tc := ⟨.hbm, 113, rfl⟩
abbrev main_v81 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x128_S100000x384_d1 : Shape.Concatenates [S100000x128, S100000x128, S100000x128] S100000x384 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x384_S384x1_S100000x1_1_0_0_1_n_n_wf : DotDims.WF S100000x384 S384x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x384_S384x1_S100000x1_1_0_0_1_n_n : DotDims S100000x384 S384x1 S100000x1 where
  lhsContracting := [1]
  rhsContracting := [0]
  lhsNonContracting := [0]
  rhsNonContracting := [1]
  lhsBatch := []
  rhsBatch := []
  wf := dot_S100000x384_S384x1_S100000x1_1_0_0_1_n_n_wf

class Facts : Prop extends Facts₀ where

variable [Facts]
-- ==== Proof.KernelRun.lean ====
/-
  The idealized kernel program's run with its result kept. The program is four regions among four stretches of host
  operations; the contents of every buffer at each boundary are a fold from the launch memory, and the last of them,
  read at the result buffer, is what the program returns.
-/
import proofs.«169364_j57724360458774_1_alg».proof.Proof.KernelIdealFrame

set_option maxRecDepth 16384

noncomputable section

namespace Cert.KernelIdeal.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run with the result NAMED: at the compiled mesh, from any memory with zero counters, every weakly fair
    execution of @main terminates, nothing faulting, and in every final state the result buffer holds what the fold
    of @main's segments leaves there (`W8`: the last region's write-backs over the last host stretch over … over the
    launch memory) and the argument arrays are as launched. The segments, the thread states between them and the
    reading of the last thread state against the final state are the frame's; only the post keeps one buffer more. -/
theorem run_value : θ_run defs (onTc (τ := τ) (main (F := F))) ⟨m, fun _ => 0, ρ⟩ (fun r => ∀ c : Dev nD,
      r.2.mem ((c.tc : Thread nD τ).loc main_v56) = W8 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v56 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c)⟩)

end Cert.KernelIdeal.Run

end
-- ==== Proof.Spec.lean ====
/-
  The mathematics both programs compute, stated once over the extended reals.

  A node's new feature row is a two-layer perceptron of the node's own row plus the sum of its in-neighbours' rows:
  with `h = agg + x` (one row of 128 features), the hidden row is `max (h · W1 + b1) 0` and the output row is
  `hidden · W2 + b2`, followed by another `max · 0` in the first two layers. Every sum runs over the 128 features
  of ONE row, so a row of the result depends on that row of `agg` and `x` only: this is why the result can be
  computed 4000 rows at a time. The final read-out is the logistic function of the three layers' rows, laid side by
  side, against a 384-vector: a sum over 384 features, which is the sum of three sums over 128 features each.
-/
import Idealize.ShloMosaic.PureOps.Ideal
import Idealize.ShloMosaic.Lib.ValueIdx

noncomputable section

namespace Cert.Gin

open Idealize.ShloMosaic Idealize.ShloMosaic.ValueIdx

/-- The zero both programs compare against and accumulate into, as the word they print. -/
abbrev z32 : EReal := Ideal.ofBits .f32 0x00000000#32

/-- One node's perceptron, before any trailing rectifier: from the node's summed feature row `h`. -/
def mlpRow (h : Fin 128 → EReal) (W1 : Fin 128 → Fin 128 → EReal) (b1 : Fin 128 → EReal)
    (W2 : Fin 128 → Fin 128 → EReal) (b2 : Fin 128 → EReal) (j : Fin 128) : EReal :=
  (∑ k2 : Fin 128, max ((∑ k1 : Fin 128, h k1 * W1 k1 k2) + b1 k2) z32 * W2 k2 j) + b2 j

abbrev SN : Shape := ⟨2, ![100000, 128]⟩
abbrev SW : Shape := ⟨2, ![128, 128]⟩
abbrev SB : Shape := ⟨1, ![128]⟩
abbrev SM : Shape := ⟨2, ![384, 1]⟩
abbrev SO : Shape := ⟨2, ![100000, 1]⟩
abbrev S1 : Shape := ⟨1, ![1]⟩

/-- A layer without the trailing rectifier, on whole arrays: row `i 0` of the result from row `i 0` of `a` and `x`. -/
def layerLin (a x : SN.Idx → EReal) (W1 : SW.Idx → EReal) (b1 : SB.Idx → EReal) (W2 : SW.Idx → EReal) (b2 : SB.Idx → EReal) :
    SN.Idx → EReal := fun i =>
  mlpRow (fun k => a (ix2 (i 0) k) + x (ix2 (i 0) k)) (fun k1 k2 => W1 (ix2 k1 k2)) (fun k => b1 (ix1 k))
    (fun k1 k2 => W2 (ix2 k1 k2)) (fun k => b2 (ix1 k)) (i 1)

/-- A layer with the trailing rectifier. -/
def layerRelu (a x : SN.Idx → EReal) (W1 : SW.Idx → EReal) (b1 : SB.Idx → EReal) (W2 : SW.Idx → EReal) (b2 : SB.Idx → EReal) :
    SN.Idx → EReal := fun i => max (layerLin a x W1 b1 W2 b2 i) z32

/-- The read-out before the logistic function, with the 384 features taken 128 at a time. -/
def logit (x1 x2 x3 : SN.Idx → EReal) (Wm : SM.Idx → EReal) (bm : S1.Idx → EReal) (r : Fin 100000) (c : Fin 1) : EReal :=
  (((∑ k : Fin 128, x1 (ix2 r k) * Wm (ix2 ⟨k.val, by omega⟩ c))
    + ∑ k : Fin 128, x2 (ix2 r k) * Wm (ix2 ⟨128 + k.val, by omega⟩ c))
    + ∑ k : Fin 128, x3 (ix2 r k) * Wm (ix2 ⟨256 + k.val, by omega⟩ c)) + bm (ix1 0)

/-- The result: one probability per node. -/
def readout (x1 x2 x3 : SN.Idx → EReal) (Wm : SM.Idx → EReal) (bm : S1.Idx → EReal) : SO.Idx → EReal :=
  fun i => Ideal.logistic (logit x1 x2 x3 Wm bm (i 0) (i 1))

/-- A sum over 384 indices is the sum of its three consecutive thirds: addition of extended reals is
    commutative and associative, so no finiteness is asked of the summands. -/
theorem sum_384 (f : Fin 384 → EReal) :
    ∑ k : Fin 384, f k = ((∑ k : Fin 128, f ⟨k.val, by omega⟩) + ∑ k : Fin 128, f ⟨128 + k.val, by omega⟩)
      + ∑ k : Fin 128, f ⟨256 + k.val, by omega⟩ := by
  have h1 : ∑ k : Fin (256 + 128), f ⟨k.val, k.isLt⟩ = (∑ k : Fin 256, f ⟨k.val, by omega⟩) + ∑ k : Fin 128, f ⟨256 + k.val, by omega⟩ :=
    Fin.sum_univ_add (fun k : Fin (256 + 128) => f ⟨k.val, k.isLt⟩)
  have h2 : ∑ k : Fin (128 + 128), f ⟨k.val, by omega⟩ = (∑ k : Fin 128, f ⟨k.val, by omega⟩) + ∑ k : Fin 128, f ⟨128 + k.val, by omega⟩ :=
    Fin.sum_univ_add (fun k : Fin (128 + 128) => f ⟨k.val, by omega⟩)
  exact h1.trans (congrArg (· + ∑ k : Fin 128, f ⟨256 + k.val, by omega⟩) h2)

end Cert.Gin

end
-- ==== Proof.KernelBlock.lean ====
/-
  What one grid step computes, read at an index. A step holds 4000 consecutive rows; its stored block, at row `p` of
  the block and column `j`, is the perceptron of row `p` of the two loaded feature blocks (`Cert.Gin.mlpRow`): the
  two block products are sums over the 128 contracted features, the bias blocks are one row repeated down the block,
  and a change of float format is the identity on the extended reals. The read-out step is the logistic function of
  three such products added up plus the bias.
-/
import proofs.«169364_j57724360458774_1_alg».proof.Proof.Gen.KernelIdeal.Skeleton
import proofs.«169364_j57724360458774_1_alg».proof.Proof.Spec
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.Gin

abbrev dW := dot_S4000x128_S128x128_S4000x128_1_0_0_1_n_n
abbrev dM := dot_S4000x128_S128x1_S4000x1_1_0_0_1_n_n

/-! The index arithmetic of the product `dW`: rows × 128 times 128 × 128, no batch axis. -/
theorem dW_l0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem dW_l1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem dW_r0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem dW_r1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block product into a zero accumulator, at row `p` and column `j`: the sum over the 128 contracted features. -/
theorem dW_apply {φ₁ φ₂ : FTy} (l : FVec Ideal S4000x128 φ₁) (r : FVec Ideal S128x128 φ₂) (p : Fin 4000) (j : Fin 128) :
    matmul dot_S4000x128_S128x128_S4000x128_1_0_0_1_n_n none l r (constant S4000x128 .f32 0x00000000#32) (ix2 p j) = ∑ k : Fin 128, l (ix2 p k) * r (ix2 k j) := by
  show FloatOps.matmul dot_S4000x128_S128x128_S4000x128_1_0_0_1_n_n none l r (constant S4000x128 .f32 0x00000000#32) (ix2 p j) = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p j) ((contrEquiv1 dot_S4000x128_S128x128_S4000x128_1_0_0_1_n_n 128 rfl rfl).symm k) = ix2 p k := funext fun a => Fin.ext (by
    match a with
    | ⟨0, _⟩ => exact dW_l0 _ _
    | ⟨1, _⟩ => exact (dW_l1 _ _).trans hk)
  have er : dot_S4000x128_S128x128_S4000x128_1_0_0_1_n_n.rhsIdx (ix2 p j) ((contrEquiv1 dot_S4000x128_S128x128_S4000x128_1_0_0_1_n_n 128 rfl rfl).symm k) = ix2 k j := funext fun a => Fin.ext (by
    match a with
    | ⟨0, _⟩ => exact (dW_r0 _ _).trans hk
    | ⟨1, _⟩ => exact dW_r1 _ _)
  rw [el, er]

/-! The index arithmetic of the product `dM`: rows × 128 times 128 × 1, no batch axis. -/
theorem dM_l0 (i : S4000x1.Idx) (q : dot_S4000x128_S128x1_S4000x1_1_0_0_1_n_n.contr.Idx) : (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem dM_l1 (i : S4000x1.Idx) (q : dot_S4000x128_S128x1_S4000x1_1_0_0_1_n_n.contr.Idx) : (dot_S4000x128_S128x1_S4000x1_1_0_0_1_n_n.lhsIdx i q 1).val = (q ⟨0, by decide⟩).val :=
  dot_S4000x128_S128x1_S4000x1_1_0_0_1_n_n.lhsIdx_val_of_single rfl i q
theorem dM_r0 (i : S4000x1.Idx) (q : dot_S4000x128_S128x1_S4000x1_1_0_0_1_n_n.contr.Idx) : (dot_S4000x128_S128x1_S4000x1_1_0_0_1_n_n.rhsIdx i q 0).val = (q ⟨0, by decide⟩).val :=
  dot_S4000x128_S128x1_S4000x1_1_0_0_1_n_n.rhsIdx_val_of_single rfl i q
theorem dM_r1 (i : S4000x1.Idx) (q : dot_S4000x128_S128x1_S4000x1_1_0_0_1_n_n.contr.Idx) : (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- The block product into a zero accumulator, at row `p` and column `j`: the sum over the 128 contracted features. -/
theorem dM_apply {φ₁ φ₂ : FTy} (l : FVec Ideal S4000x128 φ₁) (r : FVec Ideal S128x1 φ₂) (p : Fin 4000) (j : Fin 1) :
    matmul dot_S4000x128_S128x1_S4000x1_1_0_0_1_n_n none l r (constant S4000x1 .f32 0x00000000#32) (ix2 p j) = ∑ k : Fin 128, l (ix2 p k) * r (ix2 k j) := by
  show FloatOps.matmul dot_S4000x128_S128x1_S4000x1_1_0_0_1_n_n none l r (constant S4000x1 .f32 0x00000000#32) (ix2 p j) = _
  rw [Ideal.matmul_constant_zero_apply, ← Equiv.sum_comp (contrEquiv1 dot_S4000x128_S128x1_S4000x1_1_0_0_1_n_n 128 rfl rfl).symm]
  refine Finset.sum_congr rfl fun k _ => ?_
  have hk := contrEquiv1_symm_val dot_S4000x128_S128x1_S4000x1_1_0_0_1_n_n 128 rfl rfl k
  have el : dot_S4000x128_S128x1_S4000x1_1_0_0_1_n_n.lhsIdx (ix2 p j) ((contrEquiv1 dot_S4000x128_S128x1_S4000x1_1_0_0_1_n_n 128 rfl rfl).symm k) = ix2 p k := funext fun a => Fin.ext (by
    match a with
    | ⟨0, _⟩ => exact dM_l0 _ _
    | ⟨1, _⟩ => exact (dM_l1 _ _).trans hk)
  have er : dot_S4000x128_S128x1_S4000x1_1_0_0_1_n_n.rhsIdx (ix2 p j) ((contrEquiv1 dot_S4000x128_S128x1_S4000x1_1_0_0_1_n_n 128 rfl rfl).symm k) = ix2 k j := funext fun a => Fin.ext (by
    match a with
    | ⟨0, _⟩ => exact (dM_r0 _ _).trans hk
    | ⟨1, _⟩ => exact dM_r1 _ _)
  rw [el, er]

/-- A bias row repeated down a block of 4000 rows. -/
theorem biasRow_apply {α : Type} (b : S1x128.Idx → α) (h : S1x128.Broadcasts S4000x128) (p : Fin 4000) (j : Fin 128) :
    broadcastTo S4000x128 b h (ix2 p j) = b (ix2 0 j) :=
  broadcastTo_apply b h (ix2 p j) (ix2 0 j) (fun a => by match a with | ⟨0, _⟩ => rfl | ⟨1, _⟩ => rfl)

/-- The scalar bias repeated down a column of 4000 rows. -/
theorem biasOne_apply {α : Type} (b : S1x1.Idx → α) (h : S1x1.Broadcasts S4000x1) (p : Fin 4000) (j : Fin 1) :
    broadcastTo S4000x1 b h (ix2 p j) = b (ix2 0 0) :=
  broadcastTo_apply b h (ix2 p j) (ix2 0 0) (fun a => by match a with | ⟨0, _⟩ => rfl | ⟨1, _⟩ => rfl)

/-- The hidden block of a step: the rectified first product plus its bias row. -/
def hid (h : FVec Ideal S4000x128 .f32) (w1 : FVec Ideal S128x128 .bf16) (b1 : FVec Ideal S1x128 .f32)
    (hb : S1x128.Broadcasts S4000x128) : FVec Ideal S4000x128 .f32 :=
  maximumf (addf (matmul dW none (truncf .bf16 h bitsLt_bf16_f32) w1 (constant S4000x128 .f32 0x00000000#32))
    (broadcastTo S4000x128 b1 hb)) (broadcast S4000x128 (Scalar.ofBits .f32 0x00000000#32))

/-- A layer's step before the trailing rectifier: the second product of the hidden block plus its bias row. -/
def lin (x0 x1 : FVec Ideal S4000x128 .f32) (w1 : FVec Ideal S128x128 .bf16) (b1 : FVec Ideal S1x128 .f32)
    (w2 : FVec Ideal S128x128 .bf16) (b2 : FVec Ideal S1x128 .f32) (hb : S1x128.Broadcasts S4000x128) : FVec Ideal S4000x128 .f32 :=
  addf (matmul dW none (truncf .bf16 (hid (addf x0 x1) w1 b1 hb) bitsLt_bf16_f32) w2 (constant S4000x128 .f32 0x00000000#32))
    (broadcastTo S4000x128 b2 hb)

/-- The hidden block at row `p`, feature `k2`. -/
theorem hid_apply (h : FVec Ideal S4000x128 .f32) (w1 : FVec Ideal S128x128 .bf16) (b1 : FVec Ideal S1x128 .f32)
    (hb : S1x128.Broadcasts S4000x128) (p : Fin 4000) (k2 : Fin 128) :
    hid h w1 b1 hb (ix2 p k2) = max ((∑ k1 : Fin 128, h (ix2 p k1) * w1 (ix2 k1 k2)) + b1 (ix2 0 k2)) z32 := by
  have e1 := dW_apply (truncf (F := Ideal) .bf16 h bitsLt_bf16_f32) w1 p k2
  have e2 := biasRow_apply b1 hb p k2
  show max (matmul (F := Ideal) dW none (truncf (F := Ideal) .bf16 h bitsLt_bf16_f32) w1 (constant S4000x128 .f32 0x00000000#32) (ix2 p k2)
    + broadcastTo S4000x128 b1 hb (ix2 p k2)) z32 = _
  rw [e1, e2]
  rfl

/-- A layer's step before the trailing rectifier, at row `p` and column `j`: the perceptron of row `p`. -/
theorem lin_apply (x0 x1 : FVec Ideal S4000x128 .f32) (w1 : FVec Ideal S128x128 .bf16) (b1 : FVec Ideal S1x128 .f32)
    (w2 : FVec Ideal S128x128 .bf16) (b2 : FVec Ideal S1x128 .f32) (hb : S1x128.Broadcasts S4000x128) (p : Fin 4000) (j : Fin 128) :
    lin x0 x1 w1 b1 w2 b2 hb (ix2 p j)
      = mlpRow (fun k => x0 (ix2 p k) + x1 (ix2 p k)) (fun k1 k2 => w1 (ix2 k1 k2)) (fun k => b1 (ix2 0 k))
          (fun k1 k2 => w2 (ix2 k1 k2)) (fun k => b2 (ix2 0 k)) j := by
  have e1 := dW_apply (truncf (F := Ideal) .bf16 (hid (addf x0 x1) w1 b1 hb) bitsLt_bf16_f32) w2 p j
  have e2 := biasRow_apply b2 hb p j
  show matmul (F := Ideal) dW none (truncf (F := Ideal) .bf16 (hid (addf x0 x1) w1 b1 hb) bitsLt_bf16_f32) w2 (constant S4000x128 .f32 0x00000000#32) (ix2 p j)
    + broadcastTo S4000x128 b2 hb (ix2 p j) = _
  rw [e1, e2]
  unfold mlpRow
  refine congrArg (· + b2 (ix2 0 j)) (Finset.sum_congr rfl fun k2 _ => congrArg (· * w2 (ix2 k2 j)) ?_)
  exact hid_apply (addf x0 x1) w1 b1 hb p k2

/-- Layer 1's step. -/
theorem pay0_apply (x0 x1 : Vec Ideal S4000x128 .f32) (w1 : Vec Ideal S128x128 .bf16) (b1 : Vec Ideal S1x128 .f32)
    (w2 : Vec Ideal S128x128 .bf16) (b2 : Vec Ideal S1x128 .f32) (p : Fin 4000) (j : Fin 128) :
    k0_pay1 (F := Ideal) x0 x1 w1 b1 w2 b2 (ix2 p j)
      = max (mlpRow (fun k => x0 (ix2 p k) + x1 (ix2 p k)) (fun k1 k2 => w1 (ix2 k1 k2)) (fun k => b1 (ix2 0 k))
          (fun k1 k2 => w2 (ix2 k1 k2)) (fun k => b2 (ix2 0 k)) j) z32 := by
  unfold k0_pay1
  simp only [shapeCast_self]
  exact congrArg (max · z32) (lin_apply x0 x1 w1 b1 w2 b2 broadcasts_S1x128_S4000x128 p j)

/-- Layer 2's step. -/
theorem pay1_apply (x0 x1 : Vec Ideal S4000x128 .f32) (w1 : Vec Ideal S128x128 .bf16) (b1 : Vec Ideal S1x128 .f32)
    (w2 : Vec Ideal S128x128 .bf16) (b2 : Vec Ideal S1x128 .f32) (p : Fin 4000) (j : Fin 128) :
    k1_pay1 (F := Ideal) x0 x1 w1 b1 w2 b2 (ix2 p j)
      = max (mlpRow (fun k => x0 (ix2 p k) + x1 (ix2 p k)) (fun k1 k2 => w1 (ix2 k1 k2)) (fun k => b1 (ix2 0 k))
          (fun k1 k2 => w2 (ix2 k1 k2)) (fun k => b2 (ix2 0 k)) j) z32 := by
  unfold k1_pay1
  simp only [shapeCast_self]
  exact congrArg (max · z32) (lin_apply x0 x1 w1 b1 w2 b2 broadcasts_S1x128_S4000x128 p j)

/-- Layer 3's step: no trailing rectifier. -/
theorem pay2_apply (x0 x1 : Vec Ideal S4000x128 .f32) (w1 : Vec Ideal S128x128 .bf16) (b1 : Vec Ideal S1x128 .f32)
    (w2 : Vec Ideal S128x128 .bf16) (b2 : Vec Ideal S1x128 .f32) (p : Fin 4000) (j : Fin 128) :
    k2_pay1 (F := Ideal) x0 x1 w1 b1 w2 b2 (ix2 p j)
      = mlpRow (fun k => x0 (ix2 p k) + x1 (ix2 p k)) (fun k1 k2 => w1 (ix2 k1 k2)) (fun k => b1 (ix2 0 k))
          (fun k1 k2 => w2 (ix2 k1 k2)) (fun k => b2 (ix2 0 k)) j := by
  unfold k2_pay1
  simp only [shapeCast_self]
  exact lin_apply x0 x1 w1 b1 w2 b2 broadcasts_S1x128_S4000x128 p j

/-- The read-out step at row `p`: the logistic function of the three products added up, plus the bias. -/
theorem pay3_apply (x0 x1 x2 : Vec Ideal S4000x128 .f32) (w0 w1 w2 : Vec Ideal S128x1 .bf16) (bm : Vec Ideal S1x1 .f32)
    (p : Fin 4000) (j : Fin 1) :
    k3_pay1 (F := Ideal) x0 x1 x2 w0 w1 w2 bm (ix2 p j)
      = Ideal.logistic ((((∑ k : Fin 128, x0 (ix2 p k) * w0 (ix2 k j)) + ∑ k : Fin 128, x1 (ix2 p k) * w1 (ix2 k j))
          + ∑ k : Fin 128, x2 (ix2 p k) * w2 (ix2 k j)) + bm (ix2 0 0)) := by
  have e0 := dM_apply (φ₁ := .bf16) (φ₂ := .bf16) (truncf (F := Ideal) .bf16 (x0 : FVec Ideal S4000x128 .f32) bitsLt_bf16_f32) (w0 : FVec Ideal S128x1 .bf16) p j
  have e1 := dM_apply (φ₁ := .bf16) (φ₂ := .bf16) (truncf (F := Ideal) .bf16 (x1 : FVec Ideal S4000x128 .f32) bitsLt_bf16_f32) (w1 : FVec Ideal S128x1 .bf16) p j
  have e2 := dM_apply (φ₁ := .bf16) (φ₂ := .bf16) (truncf (F := Ideal) .bf16 (x2 : FVec Ideal S4000x128 .f32) bitsLt_bf16_f32) (w2 : FVec Ideal S128x1 .bf16) p j
  have e3 := biasOne_apply (bm : S1x1.Idx → EReal) broadcasts_S1x1_S4000x1 p j
  unfold k3_pay1
  simp only [shapeCast_self]
  show Ideal.logistic (((matmul (F := Ideal) dM none (truncf (F := Ideal) .bf16 (x0 : FVec Ideal S4000x128 .f32) bitsLt_bf16_f32) (w0 : FVec Ideal S128x1 .bf16) (constant S4000x1 .f32 0x00000000#32) (ix2 p j)
      + matmul (F := Ideal) dM none (truncf (F := Ideal) .bf16 (x1 : FVec Ideal S4000x128 .f32) bitsLt_bf16_f32) (w1 : FVec Ideal S128x1 .bf16) (constant S4000x1 .f32 0x00000000#32) (ix2 p j))
      + matmul (F := Ideal) dM none (truncf (F := Ideal) .bf16 (x2 : FVec Ideal S4000x128 .f32) bitsLt_bf16_f32) (w2 : FVec Ideal S128x1 .bf16) (constant S4000x1 .f32 0x00000000#32) (ix2 p j))
      + broadcastTo S4000x1 (bm : S1x1.Idx → EReal) broadcasts_S1x1_S4000x1 (ix2 p j)) = _
  rw [e0, e1, e2, e3]
  rfl

end Cert.KernelIdeal.Block

end
-- ==== Proof.KernelArrays.lean ====
/-
  Each region's output array as ONE function of the arrays the region finds. A layer's region walks 25 grid points;
  point `t` stages rows 4000·t … 4000·t + 3999 of the neighbour sums and of the features, the whole weights and biases,
  and writes back the same rows of the output. A row of the perceptron depends on that row only, so the stored block is
  the restriction of one whole-array function, and the 25 blocks tile the 100000 rows. The read-out region is the same
  with three feature windows and a one-column output.
-/
import proofs.«169364_j57724360458774_1_alg».proof.Proof.KernelIdealFrame
import proofs.«169364_j57724360458774_1_alg».proof.Proof.KernelBlock
import Idealize.ShloMosaic.Lib.Pipeline.Value

set_option maxRecDepth 16384

noncomputable section

namespace Cert.KernelIdeal.Arrays

open Cert.KernelIdeal Cert.KernelIdeal.Gen Cert.KernelIdeal.Block Idealize.ShloMosaic Idealize.ShloMosaic.TcCoe Idealize.ShloMosaic.ValueIdx
open Idealize.SL.Sem Cert.Gin
open Idealize.ShloMosaic.Pipeline (Dat Cfg Window)

/-- A rectified layer on whole arrays, with the weights and biases in the shapes the region stages them in. -/
def kRelu (A X : S100000x128.Idx → EReal) (w1 : S128x128.Idx → EReal) (b1 : S1x128.Idx → EReal)
    (w2 : S128x128.Idx → EReal) (b2 : S1x128.Idx → EReal) : S100000x128.Idx → EReal := fun i =>
  max (mlpRow (fun k => A (ix2 (i 0) k) + X (ix2 (i 0) k)) (fun k1 k2 => w1 (ix2 k1 k2)) (fun k => b1 (ix2 0 k))
    (fun k1 k2 => w2 (ix2 k1 k2)) (fun k => b2 (ix2 0 k)) (i 1)) z32

/-- The last layer: no trailing rectifier. -/
def kLin (A X : S100000x128.Idx → EReal) (w1 : S128x128.Idx → EReal) (b1 : S1x128.Idx → EReal)
    (w2 : S128x128.Idx → EReal) (b2 : S1x128.Idx → EReal) : S100000x128.Idx → EReal := fun i =>
  mlpRow (fun k => A (ix2 (i 0) k) + X (ix2 (i 0) k)) (fun k1 k2 => w1 (ix2 k1 k2)) (fun k => b1 (ix2 0 k))
    (fun k1 k2 => w2 (ix2 k1 k2)) (fun k => b2 (ix2 0 k)) (i 1)

/-- The read-out on whole arrays, with the three weight slices as the region stages them. -/
def kOut (X0 X1 X2 : S100000x128.Idx → EReal) (w0 w1 w2 : S128x1.Idx → EReal) (bm : S1x1.Idx → EReal) :
    S100000x1.Idx → EReal := fun i =>
  Ideal.logistic ((((∑ k : Fin 128, X0 (ix2 (i 0) k) * w0 (ix2 k (i 1))) + ∑ k : Fin 128, X1 (ix2 (i 0) k) * w1 (ix2 k (i 1)))
    + ∑ k : Fin 128, X2 (ix2 (i 0) k) * w2 (ix2 k (i 1))) + bm (ix2 0 0))

theorem hz : (![0, 0] : Fin 2 → Nat) = fun _ => 0 := funext fun a => by fin_cases a <;> rfl

variable (V : (c : Dev nD) → (b : Ref sig .tc) → Buf (Elt Ideal) ((c : Thread nD τ).loc b))

/-! ## Layer 1's region -/

/-- The printed index maps over the 25 grid points: the two feature windows and the output move together, one block of
    4000 rows per point; the weights and biases stay at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- One step's stored block, at an index of the block, is the layer's function of the whole arrays at the index's place
    in the array: the step's row `p` is the array's row `4000·t + p`. -/
theorem block0 (x0 x1 : Vec Ideal S4000x128 .f32) (x2 : Vec Ideal S128x128 .bf16) (x3 : Vec Ideal S1x128 .f32)
    (x4 : Vec Ideal S128x128 .bf16) (x5 : Vec Ideal S1x128 .f32)
    (A X : S100000x128.Idx → EReal) (e : S4000x128.Idx → S100000x128.Idx) (he : ∀ y, e y 1 = y 1)
    (h0 : ∀ y (k : Fin 128), x0 (ix2 (y 0) k) = A (ix2 (e y 0) k))
    (h1 : ∀ y (k : Fin 128), x1 (ix2 (y 0) k) = X (ix2 (e y 0) k)) (y : S4000x128.Idx) :
    k0_pay1 (F := Ideal) x0 x1 x2 x3 x4 x5 y = kRelu A X x2 x3 x4 x5 (e y) := by
  obtain ⟨p, j, rfl⟩ : ∃ (p : Fin 4000) (j : Fin 128), y = ix2 p j := ⟨y 0, y 1, eq_ix2 y⟩
  rw [pay0_apply]
  have hh : (fun k : Fin 128 => x0 (ix2 p k) + x1 (ix2 p k))
      = fun k => A (ix2 (e (ix2 p j) 0) k) + X (ix2 (e (ix2 p j) 0) k) :=
    funext fun k => congrArg₂ (· + ·) (h0 (ix2 p j) k) (h1 (ix2 p j) k)
  rw [hh]
  unfold kRelu
  rw [he (ix2 p j)]

set_option maxHeartbeats 1600000 in
/-- What point `t` writes back is block `t` of the layer's function of the arrays the region finds. -/
theorem flushed0_eq (c : Dev nD) (t : Fin cfg0.N) :
    (dat0 V c).flushed 6 t = ((cfg0.win 6).blk t).view.read (Elt Ideal)
      (kRelu (V c main_v13) (V c main_arg0) (V c main_v14) (V c main_v16) (V c main_v15) (V c main_v17)) := by
  show (cfg0.win 6).cut (grid0.coords t) ((dat0 V c).after 6 t) = _
  rw [after0_6]
  unfold out0_6
  rw [View.canon_unit_zero hz]
  simp only [View.ld_unit_zero (S := S4000x128) hz, View.ld_unit_zero (S := S128x128) hz, View.ld_unit_zero (S := S1x128) hz]
  obtain ⟨a00, a01, a10, a11, a20, a21, a30, a31, a40, a41, a50, a51, a60, a61⟩ := idx0 t
  have w2 : iblk0 V c 2 t = V c main_v14 := funext fun z => by
    show V c main_v14 (((cfg0.win 2).blk t).view.emb z) = V c main_v14 z
    refine congrArg _ (funext fun a => Fin.ext ?_)
    match a with
    | ⟨0, _⟩ => show win0_2.index t (0 : Fin 2) * 128 + 1 * (z 0).val = (z 0).val; omega
    | ⟨1, _⟩ => show win0_2.index t (1 : Fin 2) * 128 + 1 * (z 1).val = (z 1).val; omega
  have w3 : iblk0 V c 3 t = V c main_v16 := funext fun z => by
    show V c main_v16 (((cfg0.win 3).blk t).view.emb z) = V c main_v16 z
    refine congrArg _ (funext fun a => Fin.ext ?_)
    match a with
    | ⟨0, _⟩ => show win0_3.index t (0 : Fin 2) * 1 + 1 * (z 0).val = (z 0).val; omega
    | ⟨1, _⟩ => show win0_3.index t (1 : Fin 2) * 128 + 1 * (z 1).val = (z 1).val; omega
  have w4 : iblk0 V c 4 t = V c main_v15 := funext fun z => by
    show V c main_v15 (((cfg0.win 4).blk t).view.emb z) = V c main_v15 z
    refine congrArg _ (funext fun a => Fin.ext ?_)
    match a with
    | ⟨0, _⟩ => show win0_4.index t (0 : Fin 2) * 128 + 1 * (z 0).val = (z 0).val; omega
    | ⟨1, _⟩ => show win0_4.index t (1 : Fin 2) * 128 + 1 * (z 1).val = (z 1).val; omega
  have w5 : iblk0 V c 5 t = V c main_v17 := funext fun z => by
    show V c main_v17 (((cfg0.win 5).blk t).view.emb z) = V c main_v17 z
    refine congrArg _ (funext fun a => Fin.ext ?_)
    match a with
    | ⟨0, _⟩ => show win0_5.index t (0 : Fin 2) * 1 + 1 * (z 0).val = (z 0).val; omega
    | ⟨1, _⟩ => show win0_5.index t (1 : Fin 2) * 128 + 1 * (z 1).val = (z 1).val; omega
  rw [w2, w3, w4, w5]
  funext y
  refine block0 (iblk0 V c 0 t) (iblk0 V c 1 t) (V c main_v14) (V c main_v16) (V c main_v15) (V c main_v17) (V c main_v13) (V c main_arg0)
    (((cfg0.win 6).blk t).view.emb) ?_ ?_ ?_ y
  · intro y
    exact Fin.ext (show win0_6.index t (1 : Fin 2) * 128 + 1 * (y 1).val = (y 1).val by omega)
  · intro y k
    show V c main_v13 (((cfg0.win 0).blk t).view.emb (ix2 (y 0) k)) = V c main_v13 (ix2 ((((cfg0.win 6).blk t).view.emb y) 0) k)
    refine congrArg _ (funext fun a => Fin.ext ?_)
    match a with
    | ⟨0, _⟩ => show win0_0.index t (0 : Fin 2) * 4000 + 1 * (y 0).val = win0_6.index t (0 : Fin 2) * 4000 + 1 * (y 0).val; omega
    | ⟨1, _⟩ => show win0_0.index t (1 : Fin 2) * 128 + 1 * k.val = k.val; omega
  · intro y k
    show V c main_arg0 (((cfg0.win 1).blk t).view.emb (ix2 (y 0) k)) = V c main_arg0 (ix2 ((((cfg0.win 6).blk t).view.emb y) 0) k)
    refine congrArg _ (funext fun a => Fin.ext ?_)
    match a with
    | ⟨0, _⟩ => show win0_1.index t (0 : Fin 2) * 4000 + 1 * (y 0).val = win0_6.index t (0 : Fin 2) * 4000 + 1 * (y 0).val; omega
    | ⟨1, _⟩ => show win0_1.index t (1 : Fin 2) * 128 + 1 * k.val = k.val; omega

/-- An index of the output array is in point `t`'s block iff each coordinate is in the block's range. -/
theorem mem_blk0 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v18).slice (win0_6.rect t)).set ↔ _
  rw [View.set_slice_whole, Rect.mem_set_unit]
  exact Iff.rfl

/-- Row `r` of the output array is written by point `r / 4000`: the 25 blocks of 4000 rows tile the 100000 rows. -/
theorem cover0 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by show (i 0).val / 4000 < grid0.N; rw [N_0]; omega⟩, rfl⟩
  obtain ⟨-, -, -, -, -, -, -, -, -, -, -, -, a60, a61⟩ := idx0 t
  refine ⟨t, flush0_6 t, ?_⟩
  rw [mem_blk0]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- The output array after the region: the layer's function of the arrays the region finds. -/
theorem final0 (c : Dev nD) : (dat0 V c).arrAt 6 cfg0.N
    = kRelu (V c main_v13) (V c main_arg0) (V c main_v14) (V c main_v16) (V c main_v15) (V c main_v17) :=
  (dat0 V c).arrAt_eq_of_cover 6 _ (fun t _ => flushed0_eq V c t) (cover0)

/-! ## Layer 2's region -/

/-- The printed index maps over the 25 grid points: the two feature windows and the output move together, one block of
    4000 rows per point; the weights and biases stay at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- One step's stored block, at an index of the block, is the layer's function of the whole arrays at the index's place
    in the array: the step's row `p` is the array's row `4000·t + p`. -/
theorem block1 (x0 x1 : Vec Ideal S4000x128 .f32) (x2 : Vec Ideal S128x128 .bf16) (x3 : Vec Ideal S1x128 .f32)
    (x4 : Vec Ideal S128x128 .bf16) (x5 : Vec Ideal S1x128 .f32)
    (A X : S100000x128.Idx → EReal) (e : S4000x128.Idx → S100000x128.Idx) (he : ∀ y, e y 1 = y 1)
    (h0 : ∀ y (k : Fin 128), x0 (ix2 (y 0) k) = A (ix2 (e y 0) k))
    (h1 : ∀ y (k : Fin 128), x1 (ix2 (y 0) k) = X (ix2 (e y 0) k)) (y : S4000x128.Idx) :
    k1_pay1 (F := Ideal) x0 x1 x2 x3 x4 x5 y = kRelu A X x2 x3 x4 x5 (e y) := by
  obtain ⟨p, j, rfl⟩ : ∃ (p : Fin 4000) (j : Fin 128), y = ix2 p j := ⟨y 0, y 1, eq_ix2 y⟩
  rw [pay1_apply]
  have hh : (fun k : Fin 128 => x0 (ix2 p k) + x1 (ix2 p k))
      = fun k => A (ix2 (e (ix2 p j) 0) k) + X (ix2 (e (ix2 p j) 0) k) :=
    funext fun k => congrArg₂ (· + ·) (h0 (ix2 p j) k) (h1 (ix2 p j) k)
  rw [hh]
  unfold kRelu
  rw [he (ix2 p j)]

set_option maxHeartbeats 1600000 in
/-- What point `t` writes back is block `t` of the layer's function of the arrays the region finds. -/
theorem flushed1_eq (c : Dev nD) (t : Fin cfg1.N) :
    (dat1 V c).flushed 6 t = ((cfg1.win 6).blk t).view.read (Elt Ideal)
      (kRelu (V c main_v28) (V c main_v18) (V c main_v29) (V c main_v31) (V c main_v30) (V c main_v32)) := by
  show (cfg1.win 6).cut (grid1.coords t) ((dat1 V c).after 6 t) = _
  rw [after1_6]
  unfold out1_6
  rw [View.canon_unit_zero hz]
  simp only [View.ld_unit_zero (S := S4000x128) hz, View.ld_unit_zero (S := S128x128) hz, View.ld_unit_zero (S := S1x128) hz]
  obtain ⟨a00, a01, a10, a11, a20, a21, a30, a31, a40, a41, a50, a51, a60, a61⟩ := idx1 t
  have w2 : iblk1 V c 2 t = V c main_v29 := funext fun z => by
    show V c main_v29 (((cfg1.win 2).blk t).view.emb z) = V c main_v29 z
    refine congrArg _ (funext fun a => Fin.ext ?_)
    match a with
    | ⟨0, _⟩ => show win1_2.index t (0 : Fin 2) * 128 + 1 * (z 0).val = (z 0).val; omega
    | ⟨1, _⟩ => show win1_2.index t (1 : Fin 2) * 128 + 1 * (z 1).val = (z 1).val; omega
  have w3 : iblk1 V c 3 t = V c main_v31 := funext fun z => by
    show V c main_v31 (((cfg1.win 3).blk t).view.emb z) = V c main_v31 z
    refine congrArg _ (funext fun a => Fin.ext ?_)
    match a with
    | ⟨0, _⟩ => show win1_3.index t (0 : Fin 2) * 1 + 1 * (z 0).val = (z 0).val; omega
    | ⟨1, _⟩ => show win1_3.index t (1 : Fin 2) * 128 + 1 * (z 1).val = (z 1).val; omega
  have w4 : iblk1 V c 4 t = V c main_v30 := funext fun z => by
    show V c main_v30 (((cfg1.win 4).blk t).view.emb z) = V c main_v30 z
    refine congrArg _ (funext fun a => Fin.ext ?_)
    match a with
    | ⟨0, _⟩ => show win1_4.index t (0 : Fin 2) * 128 + 1 * (z 0).val = (z 0).val; omega
    | ⟨1, _⟩ => show win1_4.index t (1 : Fin 2) * 128 + 1 * (z 1).val = (z 1).val; omega
  have w5 : iblk1 V c 5 t = V c main_v32 := funext fun z => by
    show V c main_v32 (((cfg1.win 5).blk t).view.emb z) = V c main_v32 z
    refine congrArg _ (funext fun a => Fin.ext ?_)
    match a with
    | ⟨0, _⟩ => show win1_5.index t (0 : Fin 2) * 1 + 1 * (z 0).val = (z 0).val; omega
    | ⟨1, _⟩ => show win1_5.index t (1 : Fin 2) * 128 + 1 * (z 1).val = (z 1).val; omega
  rw [w2, w3, w4, w5]
  funext y
  refine block1 (iblk1 V c 0 t) (iblk1 V c 1 t) (V c main_v29) (V c main_v31) (V c main_v30) (V c main_v32) (V c main_v28) (V c main_v18)
    (((cfg1.win 6).blk t).view.emb) ?_ ?_ ?_ y
  · intro y
    exact Fin.ext (show win1_6.index t (1 : Fin 2) * 128 + 1 * (y 1).val = (y 1).val by omega)
  · intro y k
    show V c main_v28 (((cfg1.win 0).blk t).view.emb (ix2 (y 0) k)) = V c main_v28 (ix2 ((((cfg1.win 6).blk t).view.emb y) 0) k)
    refine congrArg _ (funext fun a => Fin.ext ?_)
    match a with
    | ⟨0, _⟩ => show win1_0.index t (0 : Fin 2) * 4000 + 1 * (y 0).val = win1_6.index t (0 : Fin 2) * 4000 + 1 * (y 0).val; omega
    | ⟨1, _⟩ => show win1_0.index t (1 : Fin 2) * 128 + 1 * k.val = k.val; omega
  · intro y k
    show V c main_v18 (((cfg1.win 1).blk t).view.emb (ix2 (y 0) k)) = V c main_v18 (ix2 ((((cfg1.win 6).blk t).view.emb y) 0) k)
    refine congrArg _ (funext fun a => Fin.ext ?_)
    match a with
    | ⟨0, _⟩ => show win1_1.index t (0 : Fin 2) * 4000 + 1 * (y 0).val = win1_6.index t (0 : Fin 2) * 4000 + 1 * (y 0).val; omega
    | ⟨1, _⟩ => show win1_1.index t (1 : Fin 2) * 128 + 1 * k.val = k.val; omega

/-- An index of the output array is in point `t`'s block iff each coordinate is in the block's range. -/
theorem mem_blk1 (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v33).slice (win1_6.rect t)).set ↔ _
  rw [View.set_slice_whole, Rect.mem_set_unit]
  exact Iff.rfl

/-- Row `r` of the output array is written by point `r / 4000`: the 25 blocks of 4000 rows tile the 100000 rows. -/
theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 4000 :=
    ⟨⟨(i 0).val / 4000, by show (i 0).val / 4000 < grid1.N; rw [N_1]; omega⟩, rfl⟩
  obtain ⟨-, -, -, -, -, -, -, -, -, -, -, -, a60, a61⟩ := idx1 t
  refine ⟨t, flush1_6 t, ?_⟩
  rw [mem_blk1]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- The output array after the region: the layer's function of the arrays the region finds. -/
theorem final1 (c : Dev nD) : (dat1 V c).arrAt 6 cfg1.N
    = kRelu (V c main_v28) (V c main_v18) (V c main_v29) (V c main_v31) (V c main_v30) (V c main_v32) :=
  (dat1 V c).arrAt_eq_of_cover 6 _ (fun t _ => flushed1_eq V c t) (cover1)

/-! ## Layer 3's region -/

/-- The printed index maps over the 25 grid points: the two feature windows and the output move together, one block of
    4000 rows per point; the weights and biases stay at block 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- One step's stored block, at an index of the block, is the layer's function of the whole arrays at the index's place
    in the array: the step's row `p` is the array's row `4000·t + p`. -/
theorem block2 (x0 x1 : Vec Ideal S4000x128 .f32) (x2 : Vec Ideal S128x128 .bf16) (x3 : Vec Ideal S1x128 .f32)
    (x4 : Vec Ideal S128x128 .bf16) (x5 : Vec Ideal S1x128 .f32)
    (A X : S100000x128.Idx → EReal) (e : S4000x128.Idx → S100000x128.Idx) (he : ∀ y, e y 1 = y 1)
    (h0 : ∀ y (k : Fin 128), x0 (ix2 (y 0) k) = A (ix2 (e y 0) k))
    (h1 : ∀ y (k : Fin 128), x1 (ix2 (y 0) k) = X (ix2 (e y 0) k)) (y : S4000x128.Idx) :
    k2_pay1 (F := Ideal) x0 x1 x2 x3 x4 x5 y = kLin A X x2 x3 x4 x5 (e y) := by
  obtain ⟨p, j, rfl⟩ : ∃ (p : Fin 4000) (j : Fin 128), y = ix2 p j := ⟨y 0, y 1, eq_ix2 y⟩
  rw [pay2_apply]
  have hh : (fun k : Fin 128 => x0 (ix2 p k) + x1 (ix2 p k))
      = fun k => A (ix2 (e (ix2 p j) 0) k) + X (ix2 (e (ix2 p j) 0) k) :=
    funext fun k => congrArg₂ (· + ·) (h0 (ix2 p j) k) (h1 (ix2 p j) k)
  rw [hh]
  unfold kLin
  rw [he (ix2 p j)]

set_option maxHeartbeats 1600000 in
/-- What point `t` writes back is block `t` of the layer's function of the arrays the region finds. -/
theorem flushed2_eq (c : Dev nD) (t : Fin cfg2.N) :
    (dat2 V c).flushed 6 t = ((cfg2.win 6).blk t).view.read (Elt Ideal)
      (kLin (V c main_v43) (V c main_v33) (V c main_v44) (V c main_v46) (V c main_v45) (V c main_v47)) := by
  show (cfg2.win 6).cut (grid2.coords t) ((dat2 V c).after 6 t) = _
  rw [after2_6]
  unfold out2_6
  rw [View.canon_unit_zero hz]
  simp only [View.ld_unit_zero (S := S4000x128) hz, View.ld_unit_zero (S := S128x128) hz, View.ld_unit_zero (S := S1x128) hz]
  obtain ⟨a00, a01, a10, a11, a20, a21, a30, a31, a40, a41, a50, a51, a60, a61⟩ := idx2 t
  have w2 : iblk2 V c 2 t = V c main_v44 := funext fun z => by
    show V c main_v44 (((cfg2.win 2).blk t).view.emb z) = V c main_v44 z
    refine congrArg _ (funext fun a => Fin.ext ?_)
    match a with
    | ⟨0, _⟩ => show win2_2.index t (0 : Fin 2) * 128 + 1 * (z 0).val = (z 0).val; omega
    | ⟨1, _⟩ => show win2_2.index t (1 : Fin 2) * 128 + 1 * (z 1).val = (z 1).val; omega
  have w3 : iblk2 V c 3 t = V c main_v46 := funext fun z => by
    show V c main_v46 (((cfg2.win 3).blk t).view.emb z) = V c main_v46 z
    refine congrArg _ (funext fun a => Fin.ext ?_)
    match a with
    | ⟨0, _⟩ => show win2_3.index t (0 : Fin 2) * 1 + 1 * (z 0).val = (z 0).val; omega
    | ⟨1, _⟩ => show win2_3.index t (1 : Fin 2) * 128 + 1 * (z 1).val = (z 1).val; omega
  have w4 : iblk2 V c 4 t = V c main_v45 := funext fun z => by
    show V c main_v45 (((cfg2.win 4).blk t).view.emb z) = V c main_v45 z
    refine congrArg _ (funext fun a => Fin.ext ?_)
    match a with
    | ⟨0, _⟩ => show win2_4.index t (0 : Fin 2) * 128 + 1 * (z 0).val = (z 0).val; omega
    | ⟨1, _⟩ => show win2_4.index t (1 : Fin 2) * 128 + 1 * (z 1).val = (z 1).val; omega
  have w5 : iblk2 V c 5 t = V c main_v47 := funext fun z => by
    show V c main_v47 (((cfg2.win 5).blk t).view.emb z) = V c main_v47 z
    refine congrArg _ (funext fun a => Fin.ext ?_)
    match a with
    | ⟨0, _⟩ => show win2_5.index t (0 : Fin 2) * 1 + 1 * (z 0).val = (z 0).val; omega
    | ⟨1, _⟩ => show win2_5.index t (1 : Fin 2) * 128 + 1 * (z 1).val = (z 1).val; omega
  rw [w2, w3, w4, w5]
  funext y
  refine block2 (iblk2 V c 0 t) (iblk2 V c 1 t) (V c main_v44) (V c main_v46) (V c main_v45) (V c main_v47) (V c main_v43) (V c main_v33)
    (((cfg2.win 6).blk t).view.emb) ?_ ?_ ?_ y
  · intro y
    exact Fin.ext (show win2_6.index t (1 : Fin 2) * 128 + 1 * (y 1).val = (y 1).val by omega)
  · intro y k
    show V c main_v43 (((cfg2.win 0).blk t).view.emb (ix2 (y 0) k)) = V c main_v43 (ix2 ((((cfg2.win 6).blk t).view.emb y) 0) k)
    refine congrArg _ (funext fun a => Fin.ext ?_)
    match a with
    | ⟨0, _⟩ => show win2_0.index t (0 : Fin 2) * 4000 + 1 * (y 0).val = win2_6.index t (0 : Fin 2) * 4000 + 1 * (y 0).val; omega
    | ⟨1, _⟩ => show win2_0.index t (1 : Fin 2) * 128 + 1 * k.val = k.val; omega
  · intro y k
    show V c main_v33 (((cfg2.win 1).blk t).view.emb (ix2 (y 0) k)) = V c main_v33 (ix2 ((((cfg2.win 6).blk t).view.emb y) 0) k)
    refine congrArg _ (funext fun a => Fin.ext ?_)
    match a with
    | ⟨0, _⟩ => show win2_1.index t (0 : Fin 2) * 4000 + 1 * (y 0).val = win2_6.index t (0 : Fin 2) * 4000 + 1 * (y 0).val; omega
    | ⟨1, _⟩ => show win2_1.index t (1 : Fin 2) * 128 + 1 * k.val = k.val; omega

/-- An index of the output array is in point `t`'s block iff each coordinate is in the block's range. -/
theorem mem_blk2 (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v48).slice (win2_6.rect t)).set ↔ _
  rw [View.set_slice_whole, Rect.mem_set_unit]
  exact Iff.rfl

/-- Row `r` of the output array is written by point `r / 4000`: the 25 blocks of 4000 rows tile the 100000 rows. -/
theorem cover2 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ : ∃ t : Fin cfg2.N, t.val = (i 0).val / 4000 :=
    ⟨⟨(i 0).val / 4000, by show (i 0).val / 4000 < grid2.N; rw [N_2]; omega⟩, rfl⟩
  obtain ⟨-, -, -, -, -, -, -, -, -, -, -, -, a60, a61⟩ := idx2 t
  refine ⟨t, flush2_6 t, ?_⟩
  rw [mem_blk2]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 128 ≤ (i 1).val ∧ (i 1).val < win2_6.index t (1 : Fin 2) * 128 + 128; omega

/-- The output array after the region: the layer's function of the arrays the region finds. -/
theorem final2 (c : Dev nD) : (dat2 V c).arrAt 6 cfg2.N
    = kLin (V c main_v43) (V c main_v33) (V c main_v44) (V c main_v46) (V c main_v45) (V c main_v47) :=
  (dat2 V c).arrAt_eq_of_cover 6 _ (fun t _ => flushed2_eq V c t) (cover2)

/-! ## The read-out region -/

/-- The printed index maps over the 25 grid points: the three feature windows and the output move together; the three
    weight slices and the bias stay at block 0. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- One read-out step's stored block, at an index of the block, is the read-out of the whole arrays at the index's place
    in the array. -/
theorem block3 (x0 x1 x2 : Vec Ideal S4000x128 .f32) (x3 x4 x5 : Vec Ideal S128x1 .bf16) (x6 : Vec Ideal S1x1 .f32)
    (X0 X1 X2 : S100000x128.Idx → EReal) (e : S4000x1.Idx → S100000x1.Idx) (he : ∀ y, e y 1 = y 1)
    (h0 : ∀ y (k : Fin 128), x0 (ix2 (y 0) k) = X0 (ix2 (e y 0) k))
    (h1 : ∀ y (k : Fin 128), x1 (ix2 (y 0) k) = X1 (ix2 (e y 0) k))
    (h2 : ∀ y (k : Fin 128), x2 (ix2 (y 0) k) = X2 (ix2 (e y 0) k)) (y : S4000x1.Idx) :
    k3_pay1 (F := Ideal) x0 x1 x2 x3 x4 x5 x6 y = kOut X0 X1 X2 x3 x4 x5 x6 (e y) := by
  obtain ⟨p, j, rfl⟩ : ∃ (p : Fin 4000) (j : Fin 1), y = ix2 p j := ⟨y 0, y 1, eq_ix2 y⟩
  rw [pay3_apply]
  have g0 : (fun k : Fin 128 => x0 (ix2 p k) * x3 (ix2 k j)) = fun k => X0 (ix2 (e (ix2 p j) 0) k) * x3 (ix2 k j) :=
    funext fun k => congrArg (· * x3 (ix2 k j)) (h0 (ix2 p j) k)
  have g1 : (fun k : Fin 128 => x1 (ix2 p k) * x4 (ix2 k j)) = fun k => X1 (ix2 (e (ix2 p j) 0) k) * x4 (ix2 k j) :=
    funext fun k => congrArg (· * x4 (ix2 k j)) (h1 (ix2 p j) k)
  have g2 : (fun k : Fin 128 => x2 (ix2 p k) * x5 (ix2 k j)) = fun k => X2 (ix2 (e (ix2 p j) 0) k) * x5 (ix2 k j) :=
    funext fun k => congrArg (· * x5 (ix2 k j)) (h2 (ix2 p j) k)
  rw [g0, g1, g2]
  unfold kOut
  rw [he (ix2 p j)]

set_option maxHeartbeats 1600000 in
/-- What point `t` writes back is block `t` of the read-out of the arrays the region finds. -/
theorem flushed3_eq (c : Dev nD) (t : Fin cfg3.N) :
    (dat3 V c).flushed 7 t = ((cfg3.win 7).blk t).view.read (Elt Ideal)
      (kOut (V c main_v18) (V c main_v33) (V c main_v48) (V c main_v50) (V c main_v52) (V c main_v54) (V c main_v55)) := by
  show (cfg3.win 7).cut (grid3.coords t) ((dat3 V c).after 7 t) = _
  rw [after3_7]
  unfold out3_7
  rw [View.canon_unit_zero hz]
  simp only [View.ld_unit_zero (S := S4000x128) hz, View.ld_unit_zero (S := S128x1) hz, View.ld_unit_zero (S := S1x1) hz]
  obtain ⟨a00, a01, a10, a11, a20, a21, a30, a31, a40, a41, a50, a51, a60, a61, a70, a71⟩ := idx3 t
  have w3 : iblk3 V c 3 t = V c main_v50 := funext fun z => by
    show V c main_v50 (((cfg3.win 3).blk t).view.emb z) = V c main_v50 z
    refine congrArg _ (funext fun a => Fin.ext ?_)
    match a with
    | ⟨0, _⟩ => show win3_3.index t (0 : Fin 2) * 128 + 1 * (z 0).val = (z 0).val; omega
    | ⟨1, _⟩ => show win3_3.index t (1 : Fin 2) * 1 + 1 * (z 1).val = (z 1).val; omega
  have w4 : iblk3 V c 4 t = V c main_v52 := funext fun z => by
    show V c main_v52 (((cfg3.win 4).blk t).view.emb z) = V c main_v52 z
    refine congrArg _ (funext fun a => Fin.ext ?_)
    match a with
    | ⟨0, _⟩ => show win3_4.index t (0 : Fin 2) * 128 + 1 * (z 0).val = (z 0).val; omega
    | ⟨1, _⟩ => show win3_4.index t (1 : Fin 2) * 1 + 1 * (z 1).val = (z 1).val; omega
  have w5 : iblk3 V c 5 t = V c main_v54 := funext fun z => by
    show V c main_v54 (((cfg3.win 5).blk t).view.emb z) = V c main_v54 z
    refine congrArg _ (funext fun a => Fin.ext ?_)
    match a with
    | ⟨0, _⟩ => show win3_5.index t (0 : Fin 2) * 128 + 1 * (z 0).val = (z 0).val; omega
    | ⟨1, _⟩ => show win3_5.index t (1 : Fin 2) * 1 + 1 * (z 1).val = (z 1).val; omega
  have w6 : iblk3 V c 6 t = V c main_v55 := funext fun z => by
    show V c main_v55 (((cfg3.win 6).blk t).view.emb z) = V c main_v55 z
    refine congrArg _ (funext fun a => Fin.ext ?_)
    match a with
    | ⟨0, _⟩ => show win3_6.index t (0 : Fin 2) * 1 + 1 * (z 0).val = (z 0).val; omega
    | ⟨1, _⟩ => show win3_6.index t (1 : Fin 2) * 1 + 1 * (z 1).val = (z 1).val; omega
  rw [w3, w4, w5, w6]
  funext y
  refine block3 (iblk3 V c 0 t) (iblk3 V c 1 t) (iblk3 V c 2 t) (V c main_v50) (V c main_v52) (V c main_v54) (V c main_v55)
    (V c main_v18) (V c main_v33) (V c main_v48) (((cfg3.win 7).blk t).view.emb) ?_ ?_ ?_ ?_ y
  · intro y
    exact Fin.ext (show win3_7.index t (1 : Fin 2) * 1 + 1 * (y 1).val = (y 1).val by omega)
  · intro y k
    show V c main_v18 (((cfg3.win 0).blk t).view.emb (ix2 (y 0) k)) = V c main_v18 (ix2 ((((cfg3.win 7).blk t).view.emb y) 0) k)
    refine congrArg _ (funext fun a => Fin.ext ?_)
    match a with
    | ⟨0, _⟩ => show win3_0.index t (0 : Fin 2) * 4000 + 1 * (y 0).val = win3_7.index t (0 : Fin 2) * 4000 + 1 * (y 0).val; omega
    | ⟨1, _⟩ => show win3_0.index t (1 : Fin 2) * 128 + 1 * k.val = k.val; omega
  · intro y k
    show V c main_v33 (((cfg3.win 1).blk t).view.emb (ix2 (y 0) k)) = V c main_v33 (ix2 ((((cfg3.win 7).blk t).view.emb y) 0) k)
    refine congrArg _ (funext fun a => Fin.ext ?_)
    match a with
    | ⟨0, _⟩ => show win3_1.index t (0 : Fin 2) * 4000 + 1 * (y 0).val = win3_7.index t (0 : Fin 2) * 4000 + 1 * (y 0).val; omega
    | ⟨1, _⟩ => show win3_1.index t (1 : Fin 2) * 128 + 1 * k.val = k.val; omega
  · intro y k
    show V c main_v48 (((cfg3.win 2).blk t).view.emb (ix2 (y 0) k)) = V c main_v48 (ix2 ((((cfg3.win 7).blk t).view.emb y) 0) k)
    refine congrArg _ (funext fun a => Fin.ext ?_)
    match a with
    | ⟨0, _⟩ => show win3_2.index t (0 : Fin 2) * 4000 + 1 * (y 0).val = win3_7.index t (0 : Fin 2) * 4000 + 1 * (y 0).val; omega
    | ⟨1, _⟩ => show win3_2.index t (1 : Fin 2) * 128 + 1 * k.val = k.val; omega

/-- An index of the result array is in point `t`'s block iff each coordinate is in the block's range. -/
theorem mem_blk3 (t : Fin cfg3.N) (i : S100000x1.Idx) :
    i ∈ ((cfg3.win 7).blk t).view.set ↔ ∀ a : Fin 2, win3_7.index t a * S4000x1.size a ≤ (i a).val ∧ (i a).val < win3_7.index t a * S4000x1.size a + S4000x1.size a := by
  show i ∈ ((View.whole main_v56).slice (win3_7.rect t)).set ↔ _
  rw [View.set_slice_whole, Rect.mem_set_unit]
  exact Iff.rfl

/-- Row `r` of the result is written by point `r / 4000`. -/
theorem cover3 (i : S100000x1.Idx) : ∃ t : Fin cfg3.N, (cfg3.win 7).flush t = true ∧ i ∈ ((cfg3.win 7).blk t).view.set := by
  have hi0 : (i 0).val < 100000 := (i 0).isLt
  have hi1 : (i 1).val < 1 := (i 1).isLt
  obtain ⟨t, ht⟩ : ∃ t : Fin cfg3.N, t.val = (i 0).val / 4000 :=
    ⟨⟨(i 0).val / 4000, by show (i 0).val / 4000 < grid3.N; rw [N_3]; omega⟩, rfl⟩
  obtain ⟨-, -, -, -, -, -, -, -, -, -, -, -, -, -, a70, a71⟩ := idx3 t
  refine ⟨t, flush3_7 t, ?_⟩
  rw [mem_blk3]
  intro a
  match a with
  | ⟨0, _⟩ => show win3_7.index t (0 : Fin 2) * 4000 ≤ (i 0).val ∧ (i 0).val < win3_7.index t (0 : Fin 2) * 4000 + 4000; omega
  | ⟨1, _⟩ => show win3_7.index t (1 : Fin 2) * 1 ≤ (i 1).val ∧ (i 1).val < win3_7.index t (1 : Fin 2) * 1 + 1; omega

/-- The result array after the region: the read-out of the arrays the region finds. -/
theorem final3 (c : Dev nD) : (dat3 V c).arrAt 7 cfg3.N
    = kOut (V c main_v18) (V c main_v33) (V c main_v48) (V c main_v50) (V c main_v52) (V c main_v54) (V c main_v55) :=
  (dat3 V c).arrAt_eq_of_cover 7 _ (fun t _ => flushed3_eq V c t) (cover3)

end Cert.KernelIdeal.Arrays

end
-- ==== Proof.RefLayers.lean ====
/-
  The reference program read against the specification. Its first layer, stage by stage, is the perceptron of
  `Cert.Gin.layerRelu` applied to the neighbour sums of the input features and the input features; its second and third
  layers are the SAME stages applied to the previous layer's output (the index clean-up and the gather and scatter are
  re-computed identically), so they are the first layer's function by unfolding; and its last stages are the logistic
  function, written as 1 / (1 + exp (−z)), of the product of the three outputs laid side by side with the 384-vector.
-/
import proofs.«169364_j57724360458774_1_alg».proof.Proof.Gen.ReferenceIdeal.Read
import proofs.«169364_j57724360458774_1_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx Cert.Gin

variable (x0 : FVec Ideal S100000x128 .f32) (x1 : IVec S2x1600000 32)
  (x3 : FVec Ideal S128x128 .f32) (x4 : FVec Ideal S128 .f32) (x5 : FVec Ideal S128x128 .f32) (x6 : FVec Ideal S128 .f32)
  (x7 : FVec Ideal S128x128 .f32) (x8 : FVec Ideal S128 .f32) (x9 : FVec Ideal S128x128 .f32) (x10 : FVec Ideal S128 .f32)
  (x11 : FVec Ideal S128x128 .f32) (x12 : FVec Ideal S128 .f32) (x13 : FVec Ideal S128x128 .f32) (x14 : FVec Ideal S128 .f32)
  (x15 : FVec Ideal S384x1 .f32) (x16 : FVec Ideal S1 .f32)

attribute [local irreducible] Host.scatterAdd Host.gather

/-- The second layer is the first layer's stages at the first layer's output: the clean-up of the edge list, the gather
    and the scatter-add are re-computed identically, so the neighbour sums are ONE function of the features. -/
theorem layer2_unfold : val_main_v49 (F := Ideal) x0 x1 x3 x4 x5 x6 x7 x8 x9 x10
    = val_main_v26 (F := Ideal) (val_main_v26 (F := Ideal) x0 x1 x3 x4 x5 x6) x1 x7 x8 x9 x10 := rfl

/-- The third layer is the first layer's stages, without the last rectifier, at the second layer's output. -/
theorem layer3_unfold : val_main_v70 (F := Ideal) x0 x1 x3 x4 x5 x6 x7 x8 x9 x10 x11 x12 x13 x14
    = val_main_v24 (F := Ideal) (val_main_v49 (F := Ideal) x0 x1 x3 x4 x5 x6 x7 x8 x9 x10) x1 x11 x12 x13 x14 := rfl

/-! From here on the neighbour sums (row `d` is the sum of the rows `s` over the edges `s → d`) are an opaque function
    of the features: only its being ONE function on both sides matters. -/
attribute [local irreducible] val_main_v13

/-- The hidden stage at row `r`, feature `c`: the rectified first product plus its bias. -/
theorem hidden_apply (r : Fin 100000) (c : Fin 128) :
    val_main_v20 (F := Ideal) x0 x1 x3 x4 (ix2 r c)
      = max ((∑ k1 : Fin 128, (val_main_v13 (F := Ideal) x0 x1 (ix2 r k1) + x0 (ix2 r k1)) * x3 (ix2 k1 c)) + x4 (ix1 c)) z32 := by
  have e3 : ∀ k1 : Fin 128, lidx_main_v15 (ix2 r c) k1 = ix2 r k1 := fun k1 =>
    funext fun a => Fin.ext (by match a with | ⟨0, _⟩ => rfl | ⟨1, _⟩ => rfl)
  have e4 : ∀ k1 : Fin 128, ridx_main_v15 (ix2 r c) k1 = ix2 k1 c := fun k1 =>
    funext fun a => Fin.ext (by match a with | ⟨0, _⟩ => rfl | ⟨1, _⟩ => rfl)
  have e5 : idx_main_v16 (idx_main_v17 (ix2 r c)) = ix1 c := funext fun a => Fin.ext (by match a with | ⟨0, _⟩ => rfl)
  rw [val_main_v20_apply, val_main_v18_apply, val_main_v15_apply, val_main_v17_apply, val_main_v16_apply, val_main_v19_apply,
    val_main_cst_1_apply, e5]
  refine congrArg₂ max (congrArg (· + x4 (ix1 c)) (Finset.sum_congr rfl fun k1 _ => ?_)) rfl
  rw [e3, e4, val_main_v14_apply]
  rfl

/-- A layer before its trailing rectifier, index by index. -/
theorem lin_apply (i : S100000x128.Idx) :
    val_main_v24 (F := Ideal) x0 x1 x3 x4 x5 x6 i = layerLin (val_main_v13 (F := Ideal) x0 x1) x0 x3 x4 x5 x6 i := by
  obtain ⟨r, c, rfl⟩ : ∃ (r : Fin 100000) (c : Fin 128), i = ix2 r c := ⟨i 0, i 1, eq_ix2 i⟩
  have e1 : ∀ k2 : Fin 128, ridx_main_v21 (ix2 r c) k2 = ix2 k2 c := fun k2 =>
    funext fun a => Fin.ext (by match a with | ⟨0, _⟩ => rfl | ⟨1, _⟩ => rfl)
  have e0 : ∀ k2 : Fin 128, lidx_main_v21 (ix2 r c) k2 = ix2 r k2 := fun k2 =>
    funext fun a => Fin.ext (by match a with | ⟨0, _⟩ => rfl | ⟨1, _⟩ => rfl)
  have e2 : idx_main_v22 (idx_main_v23 (ix2 r c)) = ix1 c := funext fun a => Fin.ext (by match a with | ⟨0, _⟩ => rfl)
  show _ = (∑ k2 : Fin 128, max ((∑ k1 : Fin 128, (val_main_v13 (F := Ideal) x0 x1 (ix2 r k1) + x0 (ix2 r k1)) * x3 (ix2 k1 k2)) + x4 (ix1 k2)) z32 * x5 (ix2 k2 c)) + x6 (ix1 c)
  rw [val_main_v24_apply, val_main_v21_apply, val_main_v23_apply, val_main_v22_apply, e2]
  refine congrArg (· + x6 (ix1 c)) (Finset.sum_congr rfl fun k2 _ => ?_)
  rw [e1, e0, hidden_apply]

/-- The first layer is the specification's rectified layer of the neighbour sums and the features. -/
theorem layer1_eq : val_main_v26 (F := Ideal) x0 x1 x3 x4 x5 x6 = layerRelu (val_main_v13 (F := Ideal) x0 x1) x0 x3 x4 x5 x6 := by
  funext i
  rw [val_main_v26_apply, val_main_v25_apply, val_main_cst_2_apply, lin_apply]
  rfl

/-- A layer without the trailing rectifier, likewise. -/
theorem layerLin_eq : val_main_v24 (F := Ideal) x0 x1 x3 x4 x5 x6 = layerLin (val_main_v13 (F := Ideal) x0 x1) x0 x3 x4 x5 x6 :=
  funext fun i => lin_apply x0 x1 x3 x4 x5 x6 i

/-- The three layers' outputs, as the specification's layers of one another. -/
def out1 : FVec Ideal S100000x128 .f32 := layerRelu (val_main_v13 (F := Ideal) x0 x1) x0 x3 x4 x5 x6
def out2 : FVec Ideal S100000x128 .f32 :=
  layerRelu (val_main_v13 (F := Ideal) (out1 x0 x1 x3 x4 x5 x6) x1) (out1 x0 x1 x3 x4 x5 x6) x7 x8 x9 x10
def out3 : FVec Ideal S100000x128 .f32 :=
  layerLin (val_main_v13 (F := Ideal) (out2 x0 x1 x3 x4 x5 x6 x7 x8 x9 x10) x1) (out2 x0 x1 x3 x4 x5 x6 x7 x8 x9 x10) x11 x12 x13 x14

theorem layer1_out : val_main_v26 (F := Ideal) x0 x1 x3 x4 x5 x6 = out1 x0 x1 x3 x4 x5 x6 := layer1_eq x0 x1 x3 x4 x5 x6

theorem layer2_out : val_main_v49 (F := Ideal) x0 x1 x3 x4 x5 x6 x7 x8 x9 x10 = out2 x0 x1 x3 x4 x5 x6 x7 x8 x9 x10 := by
  rw [layer2_unfold, layer1_out x0 x1 x3 x4 x5 x6]
  exact layer1_eq _ x1 x7 x8 x9 x10

theorem layer3_out : val_main_v70 (F := Ideal) x0 x1 x3 x4 x5 x6 x7 x8 x9 x10 x11 x12 x13 x14 = out3 x0 x1 x3 x4 x5 x6 x7 x8 x9 x10 x11 x12 x13 x14 := by
  rw [layer3_unfold, layer2_out x0 x1 x3 x4 x5 x6 x7 x8 x9 x10]
  exact layerLin_eq _ x1 x11 x12 x13 x14

/-- Three arrays laid side by side along the feature axis, read in each third. -/
theorem cat3_apply (y0 y1 y2 : FVec Ideal S100000x128 .f32) (r : Fin 100000) (k : Fin 128) :
    concatenate S100000x384 1 [⟨S100000x128, y0⟩, ⟨S100000x128, y1⟩, ⟨S100000x128, y2⟩] concatenates_S100000x128_S100000x128_S100000x128_S100000x384_d1
        (ix2 r ⟨k.val, by omega⟩) = y0 (ix2 r k)
    ∧ concatenate S100000x384 1 [⟨S100000x128, y0⟩, ⟨S100000x128, y1⟩, ⟨S100000x128, y2⟩] concatenates_S100000x128_S100000x128_S100000x128_S100000x384_d1
        (ix2 r ⟨128 + k.val, by omega⟩) = y1 (ix2 r k)
    ∧ concatenate S100000x384 1 [⟨S100000x128, y0⟩, ⟨S100000x128, y1⟩, ⟨S100000x128, y2⟩] concatenates_S100000x128_S100000x128_S100000x128_S100000x384_d1
        (ix2 r ⟨256 + k.val, by omega⟩) = y2 (ix2 r k) := by
  refine ⟨?_, ?_, ?_⟩
  · exact concatenate_apply_piece (1 : Fin S100000x384.rank) [⟨S100000x128, y0⟩, ⟨S100000x128, y1⟩, ⟨S100000x128, y2⟩] concatenates_S100000x128_S100000x128_S100000x128_S100000x384_d1 _ 0 (by show (0 : ℕ) < 3; omega)
      S100000x128 y0 rfl rfl 0 rfl (ix2 r k) (fun b hb => by match b with | ⟨0, _⟩ => rfl | ⟨1, _⟩ => exact absurd rfl hb) (by show 0 + k.val = k.val; omega)
  · exact concatenate_apply_piece (1 : Fin S100000x384.rank) [⟨S100000x128, y0⟩, ⟨S100000x128, y1⟩, ⟨S100000x128, y2⟩] concatenates_S100000x128_S100000x128_S100000x128_S100000x384_d1 _ 1 (by show (1 : ℕ) < 3; omega)
      S100000x128 y1 rfl rfl 128 rfl (ix2 r k) (fun b hb => by match b with | ⟨0, _⟩ => rfl | ⟨1, _⟩ => exact absurd rfl hb) rfl
  · exact concatenate_apply_piece (1 : Fin S100000x384.rank) [⟨S100000x128, y0⟩, ⟨S100000x128, y1⟩, ⟨S100000x128, y2⟩] concatenates_S100000x128_S100000x128_S100000x128_S100000x384_d1 _ 2 (by show (2 : ℕ) < 3; omega)
      S100000x128 y2 rfl rfl 256 rfl (ix2 r k) (fun b hb => by match b with | ⟨0, _⟩ => rfl | ⟨1, _⟩ => exact absurd rfl hb) rfl

/-- The reference's quotient 1 / (1 + exp (−z)) is the logistic function. -/
theorem logistic_spelled (z : EReal) :
    FloatOps.hostDivf (F := Ideal) (φ := .f32) (FloatOps.ofBits .f32 0x3F800000#32)
      (FloatOps.addf (F := Ideal) (φ := .f32) (FloatOps.ofBits .f32 0x3F800000#32) (FloatOps.hostUnary (F := Ideal) (φ := .f32) .exp (FloatOps.hostNegf (F := Ideal) (φ := .f32) z)))
      = Ideal.logistic z := by
  show Ideal.div (Ideal.ofBits .f32 0x3F800000#32) (Ideal.ofBits .f32 0x3F800000#32 + Ideal.exp (-z)) = _
  rw [Ideal.ofBits_one_f32]
  rfl

/-- The result is the specification's read-out of the three layers' outputs. -/
theorem result_eq : val_main_v81 (F := Ideal) x0 x1 x3 x4 x5 x6 x7 x8 x9 x10 x11 x12 x13 x14 x15 x16 = readout (out1 x0 x1 x3 x4 x5 x6) (out2 x0 x1 x3 x4 x5 x6 x7 x8 x9 x10) (out3 x0 x1 x3 x4 x5 x6 x7 x8 x9 x10 x11 x12 x13 x14) x15 x16 := by
  funext i
  obtain ⟨r, c, rfl⟩ : ∃ (r : Fin 100000) (c : Fin 1), i = ix2 r c := ⟨i 0, i 1, eq_ix2 i⟩
  have eb : idx_main_v73 (idx_main_v74 (ix2 r c)) = ix1 0 := funext fun a => Fin.ext (by match a with | ⟨0, _⟩ => rfl)
  rw [val_main_v81_apply, val_main_v80_apply, val_main_v79_apply, val_main_v78_apply, val_main_v77_apply, val_main_v76_apply,
    val_main_v75_apply, val_main_v74_apply, val_main_v73_apply, val_main_v72_apply, val_main_cst_13_apply, val_main_cst_12_apply,
    logistic_spelled, eb]
  show Ideal.logistic ((∑ k : Fin 384, _) + x16 (ix1 0)) = Ideal.logistic (logit (out1 x0 x1 x3 x4 x5 x6) (out2 x0 x1 x3 x4 x5 x6 x7 x8 x9 x10) (out3 x0 x1 x3 x4 x5 x6 x7 x8 x9 x10 x11 x12 x13 x14) x15 x16 r c)
  unfold logit
  refine congrArg Ideal.logistic (congrArg (· + x16 (ix1 0)) ?_)
  rw [sum_384]
  unfold val_main_v71
  rw [layer1_out x0 x1 x3 x4 x5 x6, layer2_out x0 x1 x3 x4 x5 x6 x7 x8 x9 x10, layer3_out x0 x1 x3 x4 x5 x6 x7 x8 x9 x10 x11 x12 x13 x14]
  have hc := cat3_apply (out1 x0 x1 x3 x4 x5 x6) (out2 x0 x1 x3 x4 x5 x6 x7 x8 x9 x10) (out3 x0 x1 x3 x4 x5 x6 x7 x8 x9 x10 x11 x12 x13 x14) r
  refine congrArg₂ (· + ·) (congrArg₂ (· + ·) (Finset.sum_congr rfl fun k _ => ?_) (Finset.sum_congr rfl fun k _ => ?_))
    (Finset.sum_congr rfl fun k _ => ?_)
  · have el : lidx_main_v72 (ix2 r c) ⟨k.val, by omega⟩ = ix2 r ⟨k.val, by omega⟩ :=
      funext fun a => Fin.ext (by match a with | ⟨0, _⟩ => rfl | ⟨1, _⟩ => rfl)
    have er : ridx_main_v72 (ix2 r c) ⟨k.val, by omega⟩ = ix2 ⟨k.val, by omega⟩ c :=
      funext fun a => Fin.ext (by match a with | ⟨0, _⟩ => rfl | ⟨1, _⟩ => rfl)
    rw [el, er, (hc k).1]
  · have el : lidx_main_v72 (ix2 r c) ⟨128 + k.val, by omega⟩ = ix2 r ⟨128 + k.val, by omega⟩ :=
      funext fun a => Fin.ext (by match a with | ⟨0, _⟩ => rfl | ⟨1, _⟩ => rfl)
    have er : ridx_main_v72 (ix2 r c) ⟨128 + k.val, by omega⟩ = ix2 ⟨128 + k.val, by omega⟩ c :=
      funext fun a => Fin.ext (by match a with | ⟨0, _⟩ => rfl | ⟨1, _⟩ => rfl)
    rw [el, er, (hc k).2.1]
  · have el : lidx_main_v72 (ix2 r c) ⟨256 + k.val, by omega⟩ = ix2 r ⟨256 + k.val, by omega⟩ :=
      funext fun a => Fin.ext (by match a with | ⟨0, _⟩ => rfl | ⟨1, _⟩ => rfl)
    have er : ridx_main_v72 (ix2 r c) ⟨256 + k.val, by omega⟩ = ix2 ⟨256 + k.val, by omega⟩ c :=
      funext fun a => Fin.ext (by match a with | ⟨0, _⟩ => rfl | ⟨1, _⟩ => rfl)
    rw [el, er, (hc k).2.2]

end Cert.ReferenceIdeal.RefValue

end
-- ==== Proof.KernelFold.lean ====
import proofs.«169364_j57724360458774_1_alg».proof.Proof.KernelArrays
import proofs.«169364_j57724360458774_1_alg».proof.Proof.RefLayers
import Idealize.ShloMosaic.Lib.StableHlo.Run

set_option maxRecDepth 16384

noncomputable section

namespace Cert.KernelIdeal.Fold

open Cert.KernelIdeal Cert.KernelIdeal.Gen Cert.KernelIdeal.Arrays Idealize.ShloMosaic Idealize.ShloMosaic.TcCoe Idealize.ShloMosaic.ValueIdx
open Idealize.SL.Sem Idealize.ShloMosaic.StableHlo Cert.Gin

attribute [local irreducible] Host.scatterAdd Host.gather

variable (m : (ℓ : Loc nD τ sig) → Buf (Elt Ideal) ℓ) (ρ : Dev nD → PrngReg) (c : Dev nD)

/-! ## Small readings: a bias laid out as one row, a weight slice, a change of float format -/

/-- A 128-vector reshaped to one row, read in that row. -/
theorem biasCast_apply (b : S128.Idx → EReal) (h : S128.ShapeCasts S1x128) (k : Fin 128) :
    shapeCast S1x128 b h (ix2 0 k) = b (ix1 k) :=
  shapeCast_apply b h (ix2 0 k) (ix1 k) (by
    rw [Shape.rowMajor_val_one, Shape.rowMajor_val_two]; show k.val = 0 * 128 + k.val; omega)

/-- The one-element bias reshaped to one row of one column. -/
theorem biasOneCast_apply (b : S1.Idx → EReal) (h : S1.ShapeCasts S1x1) :
    shapeCast S1x1 b h (ix2 0 0) = b (ix1 0) :=
  shapeCast_apply b h (ix2 0 0) (ix1 0) (by
    rw [Shape.rowMajor_val_one, Shape.rowMajor_val_two]; show 0 = 0 * 1 + 0; omega)

/-- Rows `off … off + 127` of the 384-vector, read at row `k`. -/
theorem slice_apply (off : Nat) (hoff : off + 128 ≤ 384) (Wm : S384x1.Idx → EReal) (h : S384x1.Slices ![off, 0] S128x1)
    (k : Fin 128) (j : Fin 1) :
    extractStridedSlice S128x1 ![off, 0] Wm h (ix2 k j) = Wm (ix2 ⟨off + k.val, by omega⟩ j) :=
  extractStridedSlice_apply ![off, 0] Wm h (ix2 k j) (ix2 ⟨off + k.val, by omega⟩ j) (fun a => by
    match a with
    | ⟨0, _⟩ => rfl
    | ⟨1, _⟩ => show j.val = 0 + j.val; omega)

/-- A region's rectified layer, with the biases laid out as rows, is the specification's. -/
theorem kRelu_eq (A X : S100000x128.Idx → EReal) (W1 : S128x128.Idx → EReal) (b1 : S128.Idx → EReal)
    (W2 : S128x128.Idx → EReal) (b2 : S128.Idx → EReal) (h : S128.ShapeCasts S1x128) :
    kRelu A X W1 (shapeCast S1x128 b1 h) W2 (shapeCast S1x128 b2 h) = layerRelu A X W1 b1 W2 b2 := by
  funext i
  unfold kRelu layerRelu layerLin
  have e1 : (fun k : Fin 128 => shapeCast S1x128 b1 h (ix2 0 k)) = fun k => b1 (ix1 k) := funext fun k => biasCast_apply b1 h k
  have e2 : (fun k : Fin 128 => shapeCast S1x128 b2 h (ix2 0 k)) = fun k => b2 (ix1 k) := funext fun k => biasCast_apply b2 h k
  rw [e1, e2]

/-- The same without the trailing rectifier. -/
theorem kLin_eq (A X : S100000x128.Idx → EReal) (W1 : S128x128.Idx → EReal) (b1 : S128.Idx → EReal)
    (W2 : S128x128.Idx → EReal) (b2 : S128.Idx → EReal) (h : S128.ShapeCasts S1x128) :
    kLin A X W1 (shapeCast S1x128 b1 h) W2 (shapeCast S1x128 b2 h) = layerLin A X W1 b1 W2 b2 := by
  funext i
  unfold kLin layerLin
  have e1 : (fun k : Fin 128 => shapeCast S1x128 b1 h (ix2 0 k)) = fun k => b1 (ix1 k) := funext fun k => biasCast_apply b1 h k
  have e2 : (fun k : Fin 128 => shapeCast S1x128 b2 h (ix2 0 k)) = fun k => b2 (ix1 k) := funext fun k => biasCast_apply b2 h k
  rw [e1, e2]

/-- The read-out region's function, with the 384-vector cut in its three slices, is the specification's. -/
theorem kOut_eq (X0 X1 X2 : S100000x128.Idx → EReal) (Wm : S384x1.Idx → EReal) (bm : S1.Idx → EReal)
    (h0 : S384x1.Slices ![0, 0] S128x1) (h1 : S384x1.Slices ![128, 0] S128x1) (h2 : S384x1.Slices ![256, 0] S128x1)
    (hb : S1.ShapeCasts S1x1) :
    kOut X0 X1 X2 (extractStridedSlice S128x1 ![0, 0] Wm h0) (extractStridedSlice S128x1 ![128, 0] Wm h1)
      (extractStridedSlice S128x1 ![256, 0] Wm h2) (shapeCast S1x1 bm hb) = readout X0 X1 X2 Wm bm := by
  funext i
  obtain ⟨r, j, rfl⟩ : ∃ (r : Fin 100000) (j : Fin 1), i = ix2 r j := ⟨i 0, i 1, eq_ix2 i⟩
  show Ideal.logistic ((((∑ k : Fin 128, X0 (ix2 r k) * extractStridedSlice S128x1 ![0, 0] Wm h0 (ix2 k j))
      + ∑ k : Fin 128, X1 (ix2 r k) * extractStridedSlice S128x1 ![128, 0] Wm h1 (ix2 k j))
      + ∑ k : Fin 128, X2 (ix2 r k) * extractStridedSlice S128x1 ![256, 0] Wm h2 (ix2 k j)) + shapeCast S1x1 bm hb (ix2 0 0))
    = Ideal.logistic ((((∑ k : Fin 128, X0 (ix2 r k) * Wm (ix2 ⟨k.val, by omega⟩ j))
      + ∑ k : Fin 128, X1 (ix2 r k) * Wm (ix2 ⟨128 + k.val, by omega⟩ j))
      + ∑ k : Fin 128, X2 (ix2 r k) * Wm (ix2 ⟨256 + k.val, by omega⟩ j)) + bm (ix1 0))
  have s0 : (fun k : Fin 128 => X0 (ix2 r k) * extractStridedSlice S128x1 ![0, 0] Wm h0 (ix2 k j))
      = fun k => X0 (ix2 r k) * Wm (ix2 ⟨k.val, by omega⟩ j) :=
    funext fun k => congrArg (X0 (ix2 r k) * ·) ((slice_apply 0 (by omega) Wm h0 k j).trans (congrArg Wm (congrArg (ix2 · j) (Fin.ext (by show 0 + k.val = k.val; omega)))))
  have s1 : (fun k : Fin 128 => X1 (ix2 r k) * extractStridedSlice S128x1 ![128, 0] Wm h1 (ix2 k j))
      = fun k => X1 (ix2 r k) * Wm (ix2 ⟨128 + k.val, by omega⟩ j) :=
    funext fun k => congrArg (X1 (ix2 r k) * ·) (slice_apply 128 (by omega) Wm h1 k j)
  have s2 : (fun k : Fin 128 => X2 (ix2 r k) * extractStridedSlice S128x1 ![256, 0] Wm h2 (ix2 k j))
      = fun k => X2 (ix2 r k) * Wm (ix2 ⟨256 + k.val, by omega⟩ j) :=
    funext fun k => congrArg (X2 (ix2 r k) * ·) (slice_apply 256 (by omega) Wm h2 k j)
  rw [s0, s1, s2, biasOneCast_apply]

/-! ## The walk through the segments

Every buffer a later segment reads is followed back to where it was written: a host stretch leaves a buffer it does
not write as it found it, and a region leaves every buffer that is not one of its arrays, and each of its input
arrays, as it found them. -/

theorem main_arg7_W1 : W1 m ρ c (Proc.devRef .tc main_arg7) = m ((c : Thread nD τ).loc main_arg7) := (by show StableHlo.after (hostOps0 (F := Ideal)) (W0 m ρ c) (Proc.devRef .tc main_arg7) = _; after_results <;> rfl)
theorem main_arg7_W2 : W2 m ρ c (Proc.devRef .tc main_arg7) = m ((c : Thread nD τ).loc main_arg7) := (W2_of_ne m ρ c main_arg7 (by decide)).trans (main_arg7_W1 m ρ c)
theorem main_arg8_W1 : W1 m ρ c (Proc.devRef .tc main_arg8) = m ((c : Thread nD τ).loc main_arg8) := (by show StableHlo.after (hostOps0 (F := Ideal)) (W0 m ρ c) (Proc.devRef .tc main_arg8) = _; after_results <;> rfl)
theorem main_arg8_W2 : W2 m ρ c (Proc.devRef .tc main_arg8) = m ((c : Thread nD τ).loc main_arg8) := (W2_of_ne m ρ c main_arg8 (by decide)).trans (main_arg8_W1 m ρ c)
theorem main_arg9_W1 : W1 m ρ c (Proc.devRef .tc main_arg9) = m ((c : Thread nD τ).loc main_arg9) := (by show StableHlo.after (hostOps0 (F := Ideal)) (W0 m ρ c) (Proc.devRef .tc main_arg9) = _; after_results <;> rfl)
theorem main_arg9_W2 : W2 m ρ c (Proc.devRef .tc main_arg9) = m ((c : Thread nD τ).loc main_arg9) := (W2_of_ne m ρ c main_arg9 (by decide)).trans (main_arg9_W1 m ρ c)
theorem main_arg10_W1 : W1 m ρ c (Proc.devRef .tc main_arg10) = m ((c : Thread nD τ).loc main_arg10) := (by show StableHlo.after (hostOps0 (F := Ideal)) (W0 m ρ c) (Proc.devRef .tc main_arg10) = _; after_results <;> rfl)
theorem main_arg10_W2 : W2 m ρ c (Proc.devRef .tc main_arg10) = m ((c : Thread nD τ).loc main_arg10) := (W2_of_ne m ρ c main_arg10 (by decide)).trans (main_arg10_W1 m ρ c)

theorem main_arg11_W1 : W1 m ρ c (Proc.devRef .tc main_arg11) = m ((c : Thread nD τ).loc main_arg11) := (by show StableHlo.after (hostOps0 (F := Ideal)) (W0 m ρ c) (Proc.devRef .tc main_arg11) = _; after_results <;> rfl)
theorem main_arg11_W2 : W2 m ρ c (Proc.devRef .tc main_arg11) = m ((c : Thread nD τ).loc main_arg11) := (W2_of_ne m ρ c main_arg11 (by decide)).trans (main_arg11_W1 m ρ c)
theorem main_arg11_W3 : W3 m ρ c (Proc.devRef .tc main_arg11) = m ((c : Thread nD τ).loc main_arg11) := (by show StableHlo.after (hostOps1 (F := Ideal)) (W2 m ρ c) (Proc.devRef .tc main_arg11) = _; after_results <;> rfl : W3 m ρ c (Proc.devRef .tc main_arg11) = W2 m ρ c (Proc.devRef .tc main_arg11)).trans (main_arg11_W2 m ρ c)
theorem main_arg11_W4 : W4 m ρ c (Proc.devRef .tc main_arg11) = m ((c : Thread nD τ).loc main_arg11) := (W4_of_ne m ρ c main_arg11 (by decide)).trans (main_arg11_W3 m ρ c)
theorem main_arg12_W1 : W1 m ρ c (Proc.devRef .tc main_arg12) = m ((c : Thread nD τ).loc main_arg12) := (by show StableHlo.after (hostOps0 (F := Ideal)) (W0 m ρ c) (Proc.devRef .tc main_arg12) = _; after_results <;> rfl)
theorem main_arg12_W2 : W2 m ρ c (Proc.devRef .tc main_arg12) = m ((c : Thread nD τ).loc main_arg12) := (W2_of_ne m ρ c main_arg12 (by decide)).trans (main_arg12_W1 m ρ c)
theorem main_arg12_W3 : W3 m ρ c (Proc.devRef .tc main_arg12) = m ((c : Thread nD τ).loc main_arg12) := (by show StableHlo.after (hostOps1 (F := Ideal)) (W2 m ρ c) (Proc.devRef .tc main_arg12) = _; after_results <;> rfl : W3 m ρ c (Proc.devRef .tc main_arg12) = W2 m ρ c (Proc.devRef .tc main_arg12)).trans (main_arg12_W2 m ρ c)
theorem main_arg12_W4 : W4 m ρ c (Proc.devRef .tc main_arg12) = m ((c : Thread nD τ).loc main_arg12) := (W4_of_ne m ρ c main_arg12 (by decide)).trans (main_arg12_W3 m ρ c)
theorem main_arg13_W1 : W1 m ρ c (Proc.devRef .tc main_arg13) = m ((c : Thread nD τ).loc main_arg13) := (by show StableHlo.after (hostOps0 (F := Ideal)) (W0 m ρ c) (Proc.devRef .tc main_arg13) = _; after_results <;> rfl)
theorem main_arg13_W2 : W2 m ρ c (Proc.devRef .tc main_arg13) = m ((c : Thread nD τ).loc main_arg13) := (W2_of_ne m ρ c main_arg13 (by decide)).trans (main_arg13_W1 m ρ c)
theorem main_arg13_W3 : W3 m ρ c (Proc.devRef .tc main_arg13) = m ((c : Thread nD τ).loc main_arg13) := (by show StableHlo.after (hostOps1 (F := Ideal)) (W2 m ρ c) (Proc.devRef .tc main_arg13) = _; after_results <;> rfl : W3 m ρ c (Proc.devRef .tc main_arg13) = W2 m ρ c (Proc.devRef .tc main_arg13)).trans (main_arg13_W2 m ρ c)
theorem main_arg13_W4 : W4 m ρ c (Proc.devRef .tc main_arg13) = m ((c : Thread nD τ).loc main_arg13) := (W4_of_ne m ρ c main_arg13 (by decide)).trans (main_arg13_W3 m ρ c)
theorem main_arg14_W1 : W1 m ρ c (Proc.devRef .tc main_arg14) = m ((c : Thread nD τ).loc main_arg14) := (by show StableHlo.after (hostOps0 (F := Ideal)) (W0 m ρ c) (Proc.devRef .tc main_arg14) = _; after_results <;> rfl)
theorem main_arg14_W2 : W2 m ρ c (Proc.devRef .tc main_arg14) = m ((c : Thread nD τ).loc main_arg14) := (W2_of_ne m ρ c main_arg14 (by decide)).trans (main_arg14_W1 m ρ c)
theorem main_arg14_W3 : W3 m ρ c (Proc.devRef .tc main_arg14) = m ((c : Thread nD τ).loc main_arg14) := (by show StableHlo.after (hostOps1 (F := Ideal)) (W2 m ρ c) (Proc.devRef .tc main_arg14) = _; after_results <;> rfl : W3 m ρ c (Proc.devRef .tc main_arg14) = W2 m ρ c (Proc.devRef .tc main_arg14)).trans (main_arg14_W2 m ρ c)
theorem main_arg14_W4 : W4 m ρ c (Proc.devRef .tc main_arg14) = m ((c : Thread nD τ).loc main_arg14) := (W4_of_ne m ρ c main_arg14 (by decide)).trans (main_arg14_W3 m ρ c)

theorem main_arg15_W1 : W1 m ρ c (Proc.devRef .tc main_arg15) = m ((c : Thread nD τ).loc main_arg15) := (by show StableHlo.after (hostOps0 (F := Ideal)) (W0 m ρ c) (Proc.devRef .tc main_arg15) = _; after_results <;> rfl)
theorem main_arg15_W2 : W2 m ρ c (Proc.devRef .tc main_arg15) = m ((c : Thread nD τ).loc main_arg15) := (W2_of_ne m ρ c main_arg15 (by decide)).trans (main_arg15_W1 m ρ c)
theorem main_arg15_W3 : W3 m ρ c (Proc.devRef .tc main_arg15) = m ((c : Thread nD τ).loc main_arg15) := (by show StableHlo.after (hostOps1 (F := Ideal)) (W2 m ρ c) (Proc.devRef .tc main_arg15) = _; after_results <;> rfl : W3 m ρ c (Proc.devRef .tc main_arg15) = W2 m ρ c (Proc.devRef .tc main_arg15)).trans (main_arg15_W2 m ρ c)
theorem main_arg15_W4 : W4 m ρ c (Proc.devRef .tc main_arg15) = m ((c : Thread nD τ).loc main_arg15) := (W4_of_ne m ρ c main_arg15 (by decide)).trans (main_arg15_W3 m ρ c)
theorem main_arg15_W5 : W5 m ρ c (Proc.devRef .tc main_arg15) = m ((c : Thread nD τ).loc main_arg15) := (by show StableHlo.after (hostOps2 (F := Ideal)) (W4 m ρ c) (Proc.devRef .tc main_arg15) = _; after_results <;> rfl : W5 m ρ c (Proc.devRef .tc main_arg15) = W4 m ρ c (Proc.devRef .tc main_arg15)).trans (main_arg15_W4 m ρ c)
theorem main_arg15_W6 : W6 m ρ c (Proc.devRef .tc main_arg15) = m ((c : Thread nD τ).loc main_arg15) := (W6_of_ne m ρ c main_arg15 (by decide)).trans (main_arg15_W5 m ρ c)
theorem main_arg16_W1 : W1 m ρ c (Proc.devRef .tc main_arg16) = m ((c : Thread nD τ).loc main_arg16) := (by show StableHlo.after (hostOps0 (F := Ideal)) (W0 m ρ c) (Proc.devRef .tc main_arg16) = _; after_results <;> rfl)
theorem main_arg16_W2 : W2 m ρ c (Proc.devRef .tc main_arg16) = m ((c : Thread nD τ).loc main_arg16) := (W2_of_ne m ρ c main_arg16 (by decide)).trans (main_arg16_W1 m ρ c)
theorem main_arg16_W3 : W3 m ρ c (Proc.devRef .tc main_arg16) = m ((c : Thread nD τ).loc main_arg16) := (by show StableHlo.after (hostOps1 (F := Ideal)) (W2 m ρ c) (Proc.devRef .tc main_arg16) = _; after_results <;> rfl : W3 m ρ c (Proc.devRef .tc main_arg16) = W2 m ρ c (Proc.devRef .tc main_arg16)).trans (main_arg16_W2 m ρ c)
theorem main_arg16_W4 : W4 m ρ c (Proc.devRef .tc main_arg16) = m ((c : Thread nD τ).loc main_arg16) := (W4_of_ne m ρ c main_arg16 (by decide)).trans (main_arg16_W3 m ρ c)
theorem main_arg16_W5 : W5 m ρ c (Proc.devRef .tc main_arg16) = m ((c : Thread nD τ).loc main_arg16) := (by show StableHlo.after (hostOps2 (F := Ideal)) (W4 m ρ c) (Proc.devRef .tc main_arg16) = _; after_results <;> rfl : W5 m ρ c (Proc.devRef .tc main_arg16) = W4 m ρ c (Proc.devRef .tc main_arg16)).trans (main_arg16_W4 m ρ c)
theorem main_arg16_W6 : W6 m ρ c (Proc.devRef .tc main_arg16) = m ((c : Thread nD τ).loc main_arg16) := (W6_of_ne m ρ c main_arg16 (by decide)).trans (main_arg16_W5 m ρ c)

/-- The edge list's two rows, flattened, as the first host stretch leaves them. -/
theorem src_W1 : (W1 m ρ c (Proc.devRef .tc main_v1) : S1600000.Idx → BitVec 32)
    = Cert.ReferenceIdeal.Read.val_main_v1 (F := Ideal) (m ((c : Thread nD τ).loc main_arg1)) := by
  show StableHlo.after (hostOps0 (F := Ideal)) (W0 m ρ c) (Proc.devRef .tc main_v1) = _
  after_results <;> rfl
theorem dst_W1 : (W1 m ρ c (Proc.devRef .tc main_v3) : S1600000.Idx → BitVec 32)
    = Cert.ReferenceIdeal.Read.val_main_v3 (F := Ideal) (m ((c : Thread nD τ).loc main_arg1)) := by
  show StableHlo.after (hostOps0 (F := Ideal)) (W0 m ρ c) (Proc.devRef .tc main_v3) = _
  after_results <;> rfl
theorem src_W2 : W2 m ρ c (Proc.devRef .tc main_v1) = W1 m ρ c (Proc.devRef .tc main_v1) := W2_of_ne m ρ c main_v1 (by decide)
theorem dst_W2 : W2 m ρ c (Proc.devRef .tc main_v3) = W1 m ρ c (Proc.devRef .tc main_v3) := W2_of_ne m ρ c main_v3 (by decide)
theorem src_W4 : W4 m ρ c (Proc.devRef .tc main_v1) = W1 m ρ c (Proc.devRef .tc main_v1) :=
  (W4_of_ne m ρ c main_v1 (by decide)).trans ((by show StableHlo.after (hostOps1 (F := Ideal)) (W2 m ρ c) (Proc.devRef .tc main_v1) = _; after_results <;> rfl : W3 m ρ c (Proc.devRef .tc main_v1) = W2 m ρ c (Proc.devRef .tc main_v1)).trans (src_W2 m ρ c))
theorem dst_W4 : W4 m ρ c (Proc.devRef .tc main_v3) = W1 m ρ c (Proc.devRef .tc main_v3) :=
  (W4_of_ne m ρ c main_v3 (by decide)).trans ((by show StableHlo.after (hostOps1 (F := Ideal)) (W2 m ρ c) (Proc.devRef .tc main_v3) = _; after_results <;> rfl : W3 m ρ c (Proc.devRef .tc main_v3) = W2 m ρ c (Proc.devRef .tc main_v3)).trans (dst_W2 m ρ c))

/-! ## The neighbour sums -/

/-- The neighbour sums as every stretch computes them, from the two flattened edge rows and a feature array: the
    source row is cleaned up (a negative index counts from the end), the features are gathered along it and added
    into a zero array at the destination row. -/
def aggT (dst src : IVec S1600000 32) (x : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- It is the reference's neighbour-sum stage, as a function of the features. -/
theorem aggT_ref (E : IVec S2x1600000 32) (x : FVec Ideal S100000x128 .f32) :
    aggT (Cert.ReferenceIdeal.Read.val_main_v3 (F := Ideal) E) (Cert.ReferenceIdeal.Read.val_main_v1 (F := Ideal) E) x = Cert.ReferenceIdeal.Read.val_main_v13 (F := Ideal) x E := rfl

/-! ## What each region finds -/

set_option maxHeartbeats 1600000 in
theorem agg_V1 : (V1 m ρ c main_v13 : S100000x128.Idx → EReal) = Cert.ReferenceIdeal.Read.val_main_v13 (F := Ideal) (m ((c : Thread nD τ).loc main_arg0)) (m ((c : Thread nD τ).loc main_arg1)) := by
  show StableHlo.after (hostOps0 (F := Ideal)) (W0 m ρ c) (Proc.devRef .tc main_v13) = _
  after_results <;> rfl

theorem x_V1 : (V1 m ρ c main_arg0 : S100000x128.Idx → EReal) = m ((c : Thread nD τ).loc main_arg0) := by
  show StableHlo.after (hostOps0 (F := Ideal)) (W0 m ρ c) (Proc.devRef .tc main_arg0) = _
  after_results <;> rfl

theorem w1_V1 : (V1 m ρ c main_v14 : S128x128.Idx → EReal) = m ((c : Thread nD τ).loc main_arg3) := by
  show StableHlo.after (hostOps0 (F := Ideal)) (W0 m ρ c) (Proc.devRef .tc main_v14) = _
  after_results <;> rfl

theorem w2_V1 : (V1 m ρ c main_v15 : S128x128.Idx → EReal) = m ((c : Thread nD τ).loc main_arg5) := by
  show StableHlo.after (hostOps0 (F := Ideal)) (W0 m ρ c) (Proc.devRef .tc main_v15) = _
  after_results <;> rfl

theorem b1_V1 : (V1 m ρ c main_v16 : S1x128.Idx → EReal) = shapeCast S1x128 (m ((c : Thread nD τ).loc main_arg4) : S128.Idx → EReal) shapeCasts_S128_S1x128 := by
  show StableHlo.after (hostOps0 (F := Ideal)) (W0 m ρ c) (Proc.devRef .tc main_v16) = _
  after_results <;> rfl

theorem b2_V1 : (V1 m ρ c main_v17 : S1x128.Idx → EReal) = shapeCast S1x128 (m ((c : Thread nD τ).loc main_arg6) : S128.Idx → EReal) shapeCasts_S128_S1x128 := by
  show StableHlo.after (hostOps0 (F := Ideal)) (W0 m ρ c) (Proc.devRef .tc main_v17) = _
  after_results <;> rfl

set_option maxHeartbeats 1600000 in
theorem agg_V3 : (V3 m ρ c main_v28 : S100000x128.Idx → EReal) = aggT (W2 m ρ c (Proc.devRef .tc main_v3)) (W2 m ρ c (Proc.devRef .tc main_v1)) (W2 m ρ c (Proc.devRef .tc main_v18)) := by
  show StableHlo.after (hostOps1 (F := Ideal)) (W2 m ρ c) (Proc.devRef .tc main_v28) = _
  after_results <;> rfl

theorem x_V3 : (V3 m ρ c main_v18 : S100000x128.Idx → EReal) = W2 m ρ c (Proc.devRef .tc main_v18) := by
  show StableHlo.after (hostOps1 (F := Ideal)) (W2 m ρ c) (Proc.devRef .tc main_v18) = _
  after_results <;> rfl

theorem w1_V3 : (V3 m ρ c main_v29 : S128x128.Idx → EReal) = W2 m ρ c (Proc.devRef .tc main_arg7) := by
  show StableHlo.after (hostOps1 (F := Ideal)) (W2 m ρ c) (Proc.devRef .tc main_v29) = _
  after_results <;> rfl

theorem w2_V3 : (V3 m ρ c main_v30 : S128x128.Idx → EReal) = W2 m ρ c (Proc.devRef .tc main_arg9) := by
  show StableHlo.after (hostOps1 (F := Ideal)) (W2 m ρ c) (Proc.devRef .tc main_v30) = _
  after_results <;> rfl

theorem b1_V3 : (V3 m ρ c main_v31 : S1x128.Idx → EReal) = shapeCast S1x128 (W2 m ρ c (Proc.devRef .tc main_arg8) : S128.Idx → EReal) shapeCasts_S128_S1x128 := by
  show StableHlo.after (hostOps1 (F := Ideal)) (W2 m ρ c) (Proc.devRef .tc main_v31) = _
  after_results <;> rfl

theorem b2_V3 : (V3 m ρ c main_v32 : S1x128.Idx → EReal) = shapeCast S1x128 (W2 m ρ c (Proc.devRef .tc main_arg10) : S128.Idx → EReal) shapeCasts_S128_S1x128 := by
  show StableHlo.after (hostOps1 (F := Ideal)) (W2 m ρ c) (Proc.devRef .tc main_v32) = _
  after_results <;> rfl

set_option maxHeartbeats 1600000 in
theorem agg_V5 : (V5 m ρ c main_v43 : S100000x128.Idx → EReal) = aggT (W4 m ρ c (Proc.devRef .tc main_v3)) (W4 m ρ c (Proc.devRef .tc main_v1)) (W4 m ρ c (Proc.devRef .tc main_v33)) := by
  show StableHlo.after (hostOps2 (F := Ideal)) (W4 m ρ c) (Proc.devRef .tc main_v43) = _
  after_results <;> rfl

theorem x_V5 : (V5 m ρ c main_v33 : S100000x128.Idx → EReal) = W4 m ρ c (Proc.devRef .tc main_v33) := by
  show StableHlo.after (hostOps2 (F := Ideal)) (W4 m ρ c) (Proc.devRef .tc main_v33) = _
  after_results <;> rfl

theorem w1_V5 : (V5 m ρ c main_v44 : S128x128.Idx → EReal) = W4 m ρ c (Proc.devRef .tc main_arg11) := by
  show StableHlo.after (hostOps2 (F := Ideal)) (W4 m ρ c) (Proc.devRef .tc main_v44) = _
  after_results <;> rfl

theorem w2_V5 : (V5 m ρ c main_v45 : S128x128.Idx → EReal) = W4 m ρ c (Proc.devRef .tc main_arg13) := by
  show StableHlo.after (hostOps2 (F := Ideal)) (W4 m ρ c) (Proc.devRef .tc main_v45) = _
  after_results <;> rfl

theorem b1_V5 : (V5 m ρ c main_v46 : S1x128.Idx → EReal) = shapeCast S1x128 (W4 m ρ c (Proc.devRef .tc main_arg12) : S128.Idx → EReal) shapeCasts_S128_S1x128 := by
  show StableHlo.after (hostOps2 (F := Ideal)) (W4 m ρ c) (Proc.devRef .tc main_v46) = _
  after_results <;> rfl

theorem b2_V5 : (V5 m ρ c main_v47 : S1x128.Idx → EReal) = shapeCast S1x128 (W4 m ρ c (Proc.devRef .tc main_arg14) : S128.Idx → EReal) shapeCasts_S128_S1x128 := by
  show StableHlo.after (hostOps2 (F := Ideal)) (W4 m ρ c) (Proc.devRef .tc main_v47) = _
  after_results <;> rfl

theorem x1_V7 : (V7 m ρ c main_v18 : S100000x128.Idx → EReal) = W6 m ρ c (Proc.devRef .tc main_v18) := by
  show StableHlo.after (hostOps3 (F := Ideal)) (W6 m ρ c) (Proc.devRef .tc main_v18) = _
  after_results <;> rfl

theorem x2_V7 : (V7 m ρ c main_v33 : S100000x128.Idx → EReal) = W6 m ρ c (Proc.devRef .tc main_v33) := by
  show StableHlo.after (hostOps3 (F := Ideal)) (W6 m ρ c) (Proc.devRef .tc main_v33) = _
  after_results <;> rfl

theorem x3_V7 : (V7 m ρ c main_v48 : S100000x128.Idx → EReal) = W6 m ρ c (Proc.devRef .tc main_v48) := by
  show StableHlo.after (hostOps3 (F := Ideal)) (W6 m ρ c) (Proc.devRef .tc main_v48) = _
  after_results <;> rfl

theorem wm0_V7 : (V7 m ρ c main_v50 : S128x1.Idx → EReal) = extractStridedSlice S128x1 ![0, 0] (W6 m ρ c (Proc.devRef .tc main_arg15) : S384x1.Idx → EReal) slices_S384x1_S128x1_0_0 := by
  show StableHlo.after (hostOps3 (F := Ideal)) (W6 m ρ c) (Proc.devRef .tc main_v50) = _
  after_results <;> rfl

theorem wm1_V7 : (V7 m ρ c main_v52 : S128x1.Idx → EReal) = extractStridedSlice S128x1 ![128, 0] (W6 m ρ c (Proc.devRef .tc main_arg15) : S384x1.Idx → EReal) slices_S384x1_S128x1_128_0 := by
  show StableHlo.after (hostOps3 (F := Ideal)) (W6 m ρ c) (Proc.devRef .tc main_v52) = _
  after_results <;> rfl

theorem wm2_V7 : (V7 m ρ c main_v54 : S128x1.Idx → EReal) = extractStridedSlice S128x1 ![256, 0] (W6 m ρ c (Proc.devRef .tc main_arg15) : S384x1.Idx → EReal) slices_S384x1_S128x1_256_0 := by
  show StableHlo.after (hostOps3 (F := Ideal)) (W6 m ρ c) (Proc.devRef .tc main_v54) = _
  after_results <;> rfl

theorem bm_V7 : (V7 m ρ c main_v55 : S1x1.Idx → EReal) = shapeCast S1x1 (W6 m ρ c (Proc.devRef .tc main_arg16) : S1.Idx → EReal) shapeCasts_S1_S1x1 := by
  show StableHlo.after (hostOps3 (F := Ideal)) (W6 m ρ c) (Proc.devRef .tc main_v55) = _
  after_results <;> rfl

/-- The first layer's output is an input array of the second region, which leaves it as it found it; the third
    region does not touch it. -/
theorem x1_W4 : W4 m ρ c (Proc.devRef .tc main_v18) = W2 m ρ c (Proc.devRef .tc main_v18) :=
  (W4_arr m ρ c 1).trans (((dat1 (V3 m ρ) c).arrAt_in 1 rfl _).trans ((A_eq1 (V3 m ρ) c 1).trans (x_V3 m ρ c)))
theorem x1_W6 : W6 m ρ c (Proc.devRef .tc main_v18) = W2 m ρ c (Proc.devRef .tc main_v18) :=
  (W6_of_ne m ρ c main_v18 (by decide)).trans ((by show StableHlo.after (hostOps2 (F := Ideal)) (W4 m ρ c) (Proc.devRef .tc main_v18) = _; after_results <;> rfl : W5 m ρ c (Proc.devRef .tc main_v18) = W4 m ρ c (Proc.devRef .tc main_v18)).trans (x1_W4 m ρ c))
theorem x2_W6 : W6 m ρ c (Proc.devRef .tc main_v33) = W4 m ρ c (Proc.devRef .tc main_v33) :=
  (W6_arr m ρ c 1).trans (((dat2 (V5 m ρ) c).arrAt_in 1 rfl _).trans ((A_eq2 (V5 m ρ) c 1).trans (x_V5 m ρ c)))

/-! ## The three layers and the read-out -/

/-- After the first region the first layer's output holds the specification's first layer. -/
theorem layer1_W2 : (W2 m ρ c (Proc.devRef .tc main_v18) : S100000x128.Idx → EReal) = Cert.ReferenceIdeal.RefValue.out1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W2_arr m ρ c 6).trans ((final0 (V1 m ρ) c).trans ?_)
  rw [agg_V1, x_V1, w1_V1, w2_V1, b1_V1, b2_V1]
  exact kRelu_eq _ _ _ _ _ _ _

/-- After the second region the second layer's output holds the specification's second layer. -/
theorem layer2_W4 : (W4 m ρ c (Proc.devRef .tc main_v33) : S100000x128.Idx → EReal) = Cert.ReferenceIdeal.RefValue.out2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 6).trans ((final1 (V3 m ρ) c).trans ?_)
  rw [agg_V3, x_V3, w1_V3, w2_V3, b1_V3, b2_V3, main_arg7_W2, main_arg8_W2, main_arg9_W2, main_arg10_W2,
    src_W2, dst_W2, src_W1, dst_W1, layer1_W2, aggT_ref]
  exact kRelu_eq _ _ _ _ _ _ _

/-- After the third region the third layer's output holds the specification's third layer. -/
theorem layer3_W6 : (W6 m ρ c (Proc.devRef .tc main_v48) : S100000x128.Idx → EReal) = Cert.ReferenceIdeal.RefValue.out3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W6_arr m ρ c 6).trans ((final2 (V5 m ρ) c).trans ?_)
  rw [agg_V5, x_V5, w1_V5, w2_V5, b1_V5, b2_V5, main_arg11_W4, main_arg12_W4, main_arg13_W4, main_arg14_W4,
    src_W4, dst_W4, src_W1, dst_W1, layer2_W4, aggT_ref]
  exact kLin_eq _ _ _ _ _ _ _

set_option maxHeartbeats 1600000 in
/-- THE RESULT: what the fold of @main's segments leaves in the result buffer is the reference's last stage at the
    launch contents of the arguments. -/
theorem result_W8 : (W8 m ρ c (Proc.devRef .tc main_v56) : S100000x1.Idx → EReal) = Cert.ReferenceIdeal.Read.val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W8_arr m ρ c 7).trans ((final3 (V7 m ρ) c).trans ?_)
  rw [x1_V7, x2_V7, x3_V7, wm0_V7, wm1_V7, wm2_V7, bm_V7, main_arg15_W6, main_arg16_W6, x1_W6, x2_W6,
    layer1_W2, layer2_W4, layer3_W6]
  exact (kOut_eq _ _ _ _ _ _ _ _ _).trans (Cert.ReferenceIdeal.RefValue.result_eq (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))).symm

end Cert.KernelIdeal.Fold

end
-- ==== Proof.lean ====
/-
  The certificate: a three-layer graph network against its reference.

  Each layer sends a node's feature row `x_i` to `MLP(x_i + Σ_{j→i} x_j)`, a two-layer perceptron of the node's own row plus
  the sum of its in-neighbours' rows; the result is the logistic function of the three layers' rows, laid side by side,
  against a 384-vector. The kernel program computes the neighbour sums on the host exactly as the reference does, runs
  each perceptron 4000 rows at a time in a region of 25 grid points, and reads the result out in a fourth region as three
  128-feature products added up; the reference multiplies whole arrays. On the extended reals a change of float format
  is the identity, a block product is the same sum as the whole product restricted to the block's rows, a row of the
  perceptron depends on that row only, and a sum over 384 features is the sum of its three thirds — addition being
  commutative and associative there, no finiteness of the inputs is used. So the two results are one function of the
  arguments, index by index.

  The three frames are the programs' runs with the result forgotten; the idealization rewrote no operation, so
  `preserves` has nothing to state.
-/
import proofs.«169364_j57724360458774_1_alg».proof.Defs
import proofs.«169364_j57724360458774_1_alg».proof.Proof.Gen.Kernel
import proofs.«169364_j57724360458774_1_alg».proof.Proof.KernelFrame
import proofs.«169364_j57724360458774_1_alg».proof.Proof.Gen.KernelIdeal
import proofs.«169364_j57724360458774_1_alg».proof.Proof.KernelIdealFrame
import proofs.«169364_j57724360458774_1_alg».proof.Proof.Gen.ReferenceIdeal
import proofs.«169364_j57724360458774_1_alg».proof.Proof.Gen.Pre_finite_inputs
import proofs.«169364_j57724360458774_1_alg».proof.Proof.Gen.ReferenceIdeal.Run
import proofs.«169364_j57724360458774_1_alg».proof.Proof.Gen.ReferenceIdeal.Read
import proofs.«169364_j57724360458774_1_alg».proof.Proof.KernelRun
import proofs.«169364_j57724360458774_1_alg».proof.Proof.KernelFold
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the result at the reference's last stage of the arguments: the kernel program's by the fold
    of its segments (`Fold.result_W8`), the reference's by its run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W8 m ρ c (Proc.devRef .tc Cert.KernelIdeal.main_v56), Cert.KernelIdeal.Run.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16⟩ := hagree c
  rw [Cert.ReferenceIdeal.Read.val_main_v81_eq, h0, h1, h3, h4, h5, h6, h7, h8, h9, h10, h11, h12, h13, h14, h15, h16]
  exact (Cert.KernelIdeal.Fold.result_W8 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
